-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x128 .f32) (main_arg1 : IVec S2x800000 32) (main_arg2 : FVec F S800000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  main_v8
-- ==== Kernel.lean ====
abbrev S50000x128 : Shape := ⟨2, ![50000, 128]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S250x3200 : Shape := ⟨2, ![250, 3200]⟩
abbrev S250x128 : Shape := ⟨2, ![250, 128]⟩
abbrev S800000x128 : Shape := ⟨2, ![800000, 128]⟩
abbrev S8000x128 : Shape := ⟨2, ![8000, 128]⟩
abbrev S8000x1 : Shape := ⟨2, ![8000, 1]⟩
abbrev S128 : Shape := ⟨1, ![128]⟩
abbrev S1x128 : Shape := ⟨2, ![1, 128]⟩
abbrev S50000x640 : Shape := ⟨2, ![50000, 640]⟩
abbrev S2000x128 : Shape := ⟨2, ![2000, 128]⟩
abbrev S2000x640 : Shape := ⟨2, ![2000, 640]⟩

abbrev nBuf : Space → Nat
  | .hbm => 91
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .i1⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000, .f32⟩
  | .hbm, ⟨28, _⟩ => ⟨S250x3200, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S250x3200, .f32⟩
  | .hbm, ⟨39, _⟩ => ⟨S250x3200, .f32⟩
  | .hbm, ⟨40, _⟩ => ⟨S250x3200, .f32⟩
  | .hbm, ⟨41, _⟩ => ⟨S800000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S_, .f32⟩
  | .hbm, ⟨85, _⟩ => ⟨S128, .f32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S50000x640, .f32⟩
  | .local _ .vmem, ⟨0, _⟩ => ⟨S250x128, .f32⟩
  | .local _ .vmem, ⟨1, _⟩ => ⟨S250x128, .f32⟩
  | .local _ .vmem, ⟨2, _⟩ => ⟨S250x128, .f32⟩
  | .local _ .vmem, ⟨3, _⟩ => ⟨S250x128, .f32⟩
  | .local _ .vmem, ⟨4, _⟩ => ⟨S250x128, .f32⟩
  | .local _ .vmem, ⟨5, _⟩ => ⟨S250x128, .f32⟩
  | .local _ .vmem, ⟨6, _⟩ => ⟨S250x128, .f32⟩
  | .local _ .vmem, ⟨7, _⟩ => ⟨S250x128, .f32⟩
  | .local _ .vmem, ⟨8, _⟩ => ⟨S8000x128, .f32⟩
  | .local _ .vmem, ⟨9, _⟩ => ⟨S8000x128, .f32⟩
  | .local _ .vmem, ⟨10, _⟩ => ⟨S8000x1, .f32⟩
  | .local _ .vmem, ⟨11, _⟩ => ⟨S8000x1, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x1, .f32⟩
  | .local _ .vmem, ⟨17, _⟩ => ⟨S8000x1, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S8000x1, .f32⟩
  | .local _ .vmem, ⟨23, _⟩ => ⟨S8000x1, .f32⟩
  | .local _ .vmem, ⟨24, _⟩ => ⟨S8000x128, .f32⟩
  | .local _ .vmem, ⟨25, _⟩ => ⟨S8000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S2000x640, .f32⟩
  | .local _ .vmem, ⟨36, _⟩ => ⟨S2000x640, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem5_0 : DmaSem sig := 35
abbrev cc4_sem5_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S250x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S250x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S250x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S250x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x640 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S800000_S250x3200 : S800000.ShapeCasts S250x3200
  inb_S250x128_S250x128_0_0 : ∀ a, (![0, 0] : Fin 2 → Nat) a + S250x128.size a ≤ S250x128.size a
  h_S250x128 : 0 < S250x128.numel
  shapeCasts_S250x128_S250x128 : S250x128.ShapeCasts S250x128
  shapeCasts_S250x3200_S800000x1 : S250x3200.ShapeCasts S800000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  inb_S2000x128_S2000x128_0_0 : ∀ a, (![0, 0] : Fin 2 → Nat) a + S2000x128.size a ≤ S2000x128.size a
  h_S2000x128 : 0 < S2000x128.numel
  inb_S2000x640_S2000x128_0_0 : ∀ a, (![0, 0] : Fin 2 → Nat) a + S2000x128.size a ≤ S2000x640.size a
  shapeCasts_S2000x128_S2000x128 : S2000x128.ShapeCasts S2000x128
  inb_S2000x640_S2000x128_0_128 : ∀ a, (![0, 128] : Fin 2 → Nat) a + S2000x128.size a ≤ S2000x640.size a
  inb_S2000x640_S2000x128_0_256 : ∀ a, (![0, 256] : Fin 2 → Nat) a + S2000x128.size a ≤ S2000x640.size a
  inb_S2000x640_S2000x128_0_384 : ∀ a, (![0, 384] : Fin 2 → Nat) a + S2000x128.size a ≤ S2000x640.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x640_S2000x128_0_512 : ∀ a, (![0, 512] : Fin 2 → Nat) a + S2000x128.size a ≤ S2000x640.size a
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S250x128.size a ≤ S250x3200.size a
  hwx0_0 : ∀ i : grid0.Coords, EltTy.bits .f32 = 32 ∨ (Rect.block (s := S250x3200) S250x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S250x128.size a ≤ S250x3200.size a
  hwx0_1 : ∀ i : grid0.Coords, EltTy.bits .f32 = 32 ∨ (Rect.block (s := S250x3200) S250x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S250x128.size a ≤ S250x3200.size a
  hwx0_2 : ∀ i : grid0.Coords, EltTy.bits .f32 = 32 ∨ (Rect.block (s := S250x3200) S250x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S250x128.size a ≤ S250x3200.size a
  hwx0_3 : ∀ i : grid0.Coords, EltTy.bits .f32 = 32 ∨ (Rect.block (s := S250x3200) S250x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S800000x1.size a
  hwx2_1 : ∀ i : grid2.Coords, EltTy.bits .f32 = 32 ∨ (Rect.block (s := S800000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S800000x128.size a
  hwx3_0 : ∀ i : grid3.Coords, EltTy.bits .f32 = 32 ∨ (Rect.block (s := S800000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S800000x1.size a
  hwx3_1 : ∀ i : grid3.Coords, EltTy.bits .f32 = 32 ∨ (Rect.block (s := S800000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S800000x128.size a
  hwx3_2 : ∀ i : grid3.Coords, EltTy.bits .f32 = 32 ∨ (Rect.block (s := S800000x128) S8000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x640.size a ≤ S50000x640.size a
  hwx4_5 : ∀ i : grid4.Coords, EltTy.bits .f32 = 32 ∨ (Rect.block (s := S50000x640) S2000x640.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v18) S250x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S250x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S250x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S250x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S8000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v62) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v66) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S2000x640.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S128 : Shape := ⟨1, ![128]⟩
abbrev S1x128 : Shape := ⟨2, ![1, 128]⟩
abbrev S50000x640 : Shape := ⟨2, ![50000, 640]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .i1⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000, .f32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x1, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x1, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S800000x1, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S_, .f32⟩
  | .hbm, ⟨88, _⟩ => ⟨S128, .f32⟩
  | .hbm, ⟨89, _⟩ => ⟨S1x128, .f32⟩
  | .hbm, ⟨90, _⟩ => ⟨S_, .f32⟩
  | .hbm, ⟨91, _⟩ => ⟨S1x128, .f32⟩
  | .hbm, ⟨92, _⟩ => ⟨S1x128, .f32⟩
  | .hbm, ⟨93, _⟩ => ⟨S50000x128, .f32⟩
  | .hbm, ⟨94, _⟩ => ⟨S50000x640, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  concatenates_S50000x128_S50000x128_S50000x128_S50000x128_S50000x128_S50000x640_d1 : Shape.Concatenates [S50000x128, S50000x128, S50000x128, S50000x128, S50000x128] S50000x640 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelWhole.lean ====
/-
  The kernel program, run whole: five tiled passes among stretches of whole-array operations. Every weakly fair
  execution ends, without a fault, in a memory whose persistent buffers hold what the last boundary of the program's
  fold says (the contents after the last pass, computed from the launch memory by folding each stretch's operations
  and each pass's write-backs in program order). Read at the result buffer, that is the program's value; read at the
  three arguments, they are unchanged.
-/
import proofs.«134726_j81200651698780_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Any property of the final memory that follows from "every persistent buffer of every core holds the last
    boundary's contents" holds after every weakly fair execution of the program, which terminates without a fault. -/
theorem run_of_last_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- The program's run with its result named: the result buffer ends at the last boundary's contents there, and the
    three arguments end as launched. -/
theorem run_result : θ_run defs (onTc (τ := τ) (main (F := F))) ⟨m, fun _ => 0, ρ⟩ (fun r => ∀ c : Dev nD,
      r.2.mem ((c.tc : Thread nD τ).loc main_v67) = W12 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of_last_boundary m ρ fun s h c =>
    ⟨h c _ (mem_uc main_v67 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c)⟩

end Cert.KernelIdeal.Whole

end
-- ==== Proof.Spec.lean ====
/-
  The graph propagation as one function of the three arguments: the node features x (50000 nodes, 128 numbers each),
  the edge list (row 0 the source, row 1 the target of each of the 800000 edges) and the edge weights.

  deg(i)   = sum of the weights of the edges whose target is i
  dinv(i)  = deg(i)^(-1/2) where deg(i) > 0, and 0 elsewhere
  w(e)     = dinv(source e) * weight(e) * dinv(target e), multiplied in this order
  hop(y)(i) = sum over the edges e with target i of y(source e) * w(e)          (a row of 128 numbers)
  mean     = the column sums of x divided by 50000
  output   = [ x | hop x | hop (hop x) | hop (hop (hop x)) | mean repeated down the rows ]   (50000 rows of 640 numbers)

  A negative node index counts from the end (it is shifted up by 50000) before it is used to look a row up. Every sum
  and look-up is the whole-array operation of that name; nothing here reads an array at an index.
-/
import proofs.«134726_j81200651698780_2_alg».proof.KernelIdeal
import proofs.«134726_j81200651698780_2_alg».proof.Proof.Gen.KernelIdeal

noncomputable section

namespace Cert.KernelIdeal.Spec

open Cert.KernelIdeal Cert.KernelIdeal.Gen Idealize.ShloMosaic

variable {F : FTy → Type} [FloatOps F]

/-- A column of 800000 entries spreads along rows of 128. -/
theorem spread : S800000x1.BroadcastsInDim S800000x128 (![0, 1] : Fin 2 → Fin S800000x128.rank) := by decide
/-- One row of 128 entries repeats down 50000 rows. -/
theorem repeated : S1x128.BroadcastsInDim S50000x128 (![0, 1] : Fin 2 → Fin S50000x128.rank) := by decide
/-- Five arrays of 128 columns join into one of 640 columns. -/
theorem joins : Shape.Concatenates [S50000x128, S50000x128, S50000x128, S50000x128, S50000x128] S50000x640 (1 : Fin 2) := by decide

/-- Arrays of 32-bit integers and of floats of a shape. -/
abbrev Ints (F : FTy → Type) (s : Shape) : Type := (⟨s, .i32⟩ : BufTy).Contents (Elt F)
abbrev Floats (F : FTy → Type) (s : Shape) : Type := (⟨s, .f32⟩ : BufTy).Contents (Elt F)

/-- The source node of every edge: row 0 of the edge list. -/
def src (a1 : Ints F S2x800000) : Ints F S800000 :=
  shapeCast S800000 (extractStridedSlice S1x800000 ![0, 0] a1 slices_S2x800000_S1x800000_0_0) shapeCasts_S1x800000_S800000

/-- The target node of every edge: row 1 of the edge list. -/
def tgt (a1 : Ints F S2x800000) : Ints F S800000 :=
  shapeCast S800000 (extractStridedSlice S1x800000 ![1, 0] a1 slices_S2x800000_S1x800000_1_0) shapeCasts_S1x800000_S800000

/-- A negative node index counts from the end: it is shifted up by the number of nodes. -/
def wrap (idx : Ints F S800000) : Ints F S800000 :=
  select (cmpi .slt idx (broadcastInDim S800000 ![] bcast_S_S800000 (constantI S_ 32 0#32)))
    (addi idx (broadcastInDim S800000 ![] bcast_S_S800000 (constantI S_ 32 50000#32))) idx

/-- The node indices stood up as a column, the form a look-up or a segment sum takes them in. -/
def asColumn (idx : Ints F S800000) : Ints F S800000x1 :=
  broadcastInDim S800000x1 ![0] bcast_S800000_S800000x1_0 idx

/-- The weighted in-degree of every node. -/
def degree (a1 : Ints F S2x800000) (a2 : Floats F S800000) : Floats F S50000 :=
  Host.scatterAdd scatter_S50000_S800000x1_S800000_n_0_0_1
    (broadcastInDim S50000 ![] bcast_S_S50000 (constant S_ .f32 0x00000000#32)) (asColumn (tgt a1)) a2

/-- deg^(-1/2) where the degree is positive, 0 elsewhere. -/
def dinv (a1 : Ints F S2x800000) (a2 : Floats F S800000) : Floats F S50000 :=
  select (cmpf .ogt (degree a1 a2) (broadcastInDim S50000 ![] bcast_S_S50000 (constant S_ .f32 0x00000000#32)))
    (Host.rsqrt (degree a1 a2))
    (broadcastInDim S50000 ![] bcast_S_S50000 (id (constant S_ .f32 0x00000000#32)))

/-- dinv looked up at one end of every edge. -/
def dinvAt (a1 : Ints F S2x800000) (a2 : Floats F S800000) (idx : Ints F S800000) : Floats F S800000 :=
  Host.gather gather_S50000_S800000x1_S800000_n_0_n_n_0_1_1 (dinv a1 a2) (asColumn (wrap idx))

/-- The normalised edge weights dinv(source) * weight * dinv(target), as a flat list. -/
def weightList (a1 : Ints F S2x800000) (a2 : Floats F S800000) : Floats F S800000 :=
  mulf (mulf (dinvAt a1 a2 (src a1)) a2) (dinvAt a1 a2 (tgt a1))

/-- The normalised edge weights as a column. -/
def weights (a1 : Ints F S2x800000) (a2 : Floats F S800000) : Floats F S800000x1 :=
  broadcastInDim S800000x1 ![0] bcast_S800000_S800000x1_0 (weightList a1 a2)

/-- The rows of y at the source of every edge. -/
def gatherRows (y : Floats F S50000x128) (a1 : Ints F S2x800000) : Floats F S800000x128 :=
  Host.gather gather_S50000x128_S800000x1_S800000x128_1_0_n_n_0_1_1128 y (asColumn (wrap (src a1)))

/-- The messages: a feature row per edge times that edge's weight, the weight column spread along the row. -/
def msgs (xg : Floats F S800000x128) (w : Floats F S800000x1) : Floats F S800000x128 :=
  mulf xg (broadcastInDim S800000x128 ![0, 1] spread w)

/-- The messages summed at the target of every edge. -/
def collect (a1 : Ints F S2x800000) (ms : Floats F S800000x128) : Floats F S50000x128 :=
  Host.scatterAdd scatter_S50000x128_S800000x1_S800000x128_1_0_0_1
    (broadcastInDim S50000x128 ![] bcast_S_S50000x128 (constant S_ .f32 0x00000000#32)) (asColumn (tgt a1)) ms

/-- One hop of propagation. -/
def hop (a1 : Ints F S2x800000) (a2 : Floats F S800000) (y : Floats F S50000x128) : Floats F S50000x128 :=
  collect a1 (msgs (gatherRows y a1) (weights a1 a2))

/-- The row of column means of x: the column sums divided by the number of nodes. -/
def meanRow (a0 : Floats F S50000x128) : Floats F S1x128 :=
  Host.divf
    (broadcastInDim S1x128 ![1] bcast_S128_S1x128_1 (Host.reduceAdd a0 (constant S_ .f32 0x00000000#32) reducesTo_S50000x128_S128_d0 h_S_))
    (broadcastInDim S1x128 ![] bcast_S_S1x128 (constant S_ .f32 0x47435000#32))

/-- Five arrays of 128 columns joined along the columns, the last the row of means repeated down the rows. -/
def assembled (x0 x1 x2 x3 : Floats F S50000x128) (mean : Floats F S1x128) : Floats F S50000x640 :=
  concatenate S50000x640 1 [⟨S50000x128, x0⟩, ⟨S50000x128, x1⟩, ⟨S50000x128, x2⟩, ⟨S50000x128, x3⟩,
    ⟨S50000x128, broadcastInDim S50000x128 ![0, 1] repeated mean⟩] joins

/-- The whole output. -/
def output (a0 : Floats F S50000x128) (a1 : Ints F S2x800000) (a2 : Floats F S800000) : Floats F S50000x640 :=
  assembled a0 (hop a1 a2 a0) (hop a1 a2 (hop a1 a2 a0)) (hop a1 a2 (hop a1 a2 (hop a1 a2 a0))) (meanRow a0)

end Cert.KernelIdeal.Spec

end
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.EdgeLayout.lean ====
/-
  The edge scalars of the graph (one number per edge, 800000 of them) are handled in three layouts: as a flat list,
  as a lane-dense grid of 250 rows of 3200 lanes, and as a column of 800000 rows. All three hold the edges in the same
  row-major order: edge e sits at row e / 3200, lane e % 3200 of the grid, and at row e of the column. So the
  symmetric edge normalisation w_e = dinv[row_e] * weight_e * dinv[col_e], computed entry by entry on the grid and then
  re-laid as a column, is the same column as the one obtained by multiplying the flat lists and standing the product up.
-/
import Idealize.ShloMosaic.PureOps
import Idealize.ShloMosaic.Lib.Pipeline.Value
import Idealize.ShloMosaic.Lib.ValueIdx
import Idealize.ShloMosaic.Lib.ValueLayout
import proofs.«134726_j81200651698780_2_alg».proof.Proof.LibColumnInDim

noncomputable section

namespace Cert.EdgeLayout

open Idealize.ShloMosaic Idealize.ShloMosaic.ValueIdx

/-- The flat list of edges. -/
abbrev SE : Shape := ⟨1, ![800000]⟩
/-- The lane-dense grid of edges. -/
abbrev SG : Shape := ⟨2, ![250, 3200]⟩
/-- The column of edges. -/
abbrev SC : Shape := ⟨2, ![800000, 1]⟩

variable {α : Type}

/-- The grid entry at row r, lane l is the flat entry of edge e = 3200 r + l. -/
theorem edge_to_grid (x : SE.Idx → α) (h : SE.ShapeCasts SG) (r : Fin 250) (l : Fin 3200) (e : Fin 800000)
    (he : e.val = r.val * 3200 + l.val) : shapeCast SG x h (ix2 r l) = x (ix1 e) :=
  shapeCast_apply x h (ix2 r l) (ix1 e) (by
    rw [Shape.rowMajor_val_one, Shape.rowMajor_val_two]
    show e.val = r.val * 3200 + l.val
    exact he)

/-- The column entry of edge e = 3200 r + l is the grid entry at row r, lane l. -/
theorem grid_to_column (y : SG.Idx → α) (h : SG.ShapeCasts SC) (e : Fin 800000) (u : Fin 1) (r : Fin 250) (l : Fin 3200)
    (he : e.val = r.val * 3200 + l.val) : shapeCast SC y h (ix2 e u) = y (ix2 r l) :=
  shapeCast_apply y h (ix2 e u) (ix2 r l) (by
    rw [Shape.rowMajor_val_two, Shape.rowMajor_val_two]
    show r.val * 3200 + l.val = e.val * 1 + u.val
    have hu : u.val = 0 := by omega
    omega)

variable {F : FTy → Type} [FloatOps F]

/-- The normalised edge weights: the product taken entry by entry on the grid and re-laid as a column is the product
    of the flat lists stood up as a column. Entry e of either is g1 e * ew e * g2 e, in that order of multiplication. -/
theorem normWeight_relayout (g1 ew g2 : FVec F SE .f32) (h1 : SE.ShapeCasts SG) (h2 : SG.ShapeCasts SC)
    (hb : SE.BroadcastsInDim SC ![0]) :
    shapeCast SC (mulf (mulf (shapeCast SG g1 h1) (shapeCast SG ew h1)) (shapeCast SG g2 h1)) h2
      = broadcastInDim SC ![0] hb (mulf (mulf g1 ew) g2) := by
  funext i
  obtain ⟨e, u, rfl⟩ : ∃ (e : Fin 800000) (u : Fin 1), i = ix2 e u := ⟨i 0, i 1, eq_ix2 i⟩
  have hr : e.val / 3200 < 250 := by have := e.isLt; omega
  have hl : e.val % 3200 < 3200 := Nat.mod_lt _ (by norm_num)
  have he : e.val = (⟨e.val / 3200, hr⟩ : Fin 250).val * 3200 + (⟨e.val % 3200, hl⟩ : Fin 3200).val := by
    show e.val = e.val / 3200 * 3200 + e.val % 3200
    omega
  rw [grid_to_column _ h2 e u ⟨e.val / 3200, hr⟩ ⟨e.val % 3200, hl⟩ he,
    Cert.Lib.ColumnInDim.column_apply (by norm_num) hb _ e u]
  show FloatOps.mulf (FloatOps.mulf (shapeCast SG g1 h1 _) (shapeCast SG ew h1 _)) (shapeCast SG g2 h1 _)
    = FloatOps.mulf (FloatOps.mulf (g1 _) (ew _)) (g2 _)
  rw [edge_to_grid g1 h1 _ _ e he, edge_to_grid ew h1 _ _ e he, edge_to_grid g2 h1 _ _ e he]

end Cert.EdgeLayout

end
-- ==== Proof.NormWeight.lean ====
/-
  The edge-weight pass. Its three inputs are the lane-dense grids (250 rows of 3200 lanes) of the source-degree
  factor, the raw edge weight and the target-degree factor of every edge; the pass walks the lanes in 25 blocks of 128
  and multiplies the three grids entry by entry, (a * b) * d. Block t is lanes 128 t … 128 t + 127 of every row of all
  four arrays, the blocks tile the output, so after the pass the output grid is the entrywise product of the inputs.
-/
import proofs.«134726_j81200651698780_2_alg».proof.Proof.Gen.KernelIdeal.Frame
import Idealize.ShloMosaic.Lib.Pipeline.Value
import Idealize.ShloMosaic.Lib.ValueIdx

noncomputable section

namespace Cert.KernelIdeal.NormWeight

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem no_offset : (![0, 0] : Fin 2 → Nat) = fun _ => 0 := funext fun a => by fin_cases a <;> rfl

/-- The entrywise product of three grids, multiplied left to right. -/
abbrev prod3 (a b d : S250x3200.Idx → Elt F .f32) : S250x3200.Idx → Elt F .f32 := mulf (mulf a b) d

/-- What the body stores: the entrywise product of its three blocks, multiplied left to right. -/
theorem pay_eq (x0 x1 x2 : Vec F S250x128 .f32) : k0_pay1 x0 x1 x2 = mulf (mulf x0 x1) x2 := by
  unfold k0_pay1
  simp only [shapeCast_self]

/-- All four windows walk the lanes together: point t holds block row 0, block column t. -/
theorem lanes : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The four windows' blocks at a point sit at the same place of their arrays. -/
theorem emb_same (t : Fin cfg0.N) (j : S250x128.Idx) :
    ((cfg0.win 0).blk t).view.emb j = ((cfg0.win 3).blk t).view.emb j
    ∧ ((cfg0.win 1).blk t).view.emb j = ((cfg0.win 3).blk t).view.emb j
    ∧ ((cfg0.win 2).blk t).view.emb j = ((cfg0.win 3).blk t).view.emb j := by
  obtain ⟨e0, e1, e2, e3, e4, e5, e6, e7⟩ := lanes t
  refine ⟨?_, ?_, ?_⟩ <;> (funext a; apply Fin.ext)
  · match a with
    | ⟨0, _⟩ => show win0_0.index t (0 : Fin 2) * 250 + 1 * (j 0).val = win0_3.index t (0 : Fin 2) * 250 + 1 * (j 0).val; rw [e0, e6]
    | ⟨1, _⟩ => show win0_0.index t (1 : Fin 2) * 128 + 1 * (j 1).val = win0_3.index t (1 : Fin 2) * 128 + 1 * (j 1).val; rw [e1, e7]
  · match a with
    | ⟨0, _⟩ => show win0_1.index t (0 : Fin 2) * 250 + 1 * (j 0).val = win0_3.index t (0 : Fin 2) * 250 + 1 * (j 0).val; rw [e2, e6]
    | ⟨1, _⟩ => show win0_1.index t (1 : Fin 2) * 128 + 1 * (j 1).val = win0_3.index t (1 : Fin 2) * 128 + 1 * (j 1).val; rw [e3, e7]
  · match a with
    | ⟨0, _⟩ => show win0_2.index t (0 : Fin 2) * 250 + 1 * (j 0).val = win0_3.index t (0 : Fin 2) * 250 + 1 * (j 0).val; rw [e4, e6]
    | ⟨1, _⟩ => show win0_2.index t (1 : Fin 2) * 128 + 1 * (j 1).val = win0_3.index t (1 : Fin 2) * 128 + 1 * (j 1).val; rw [e5, e7]

/-- What point t writes back is block t of the product of the three grids as the pass finds them. -/
theorem flushed_eq (c : Dev nD) (t : Fin cfg0.N) :
    (dat0 V c).flushed 3 t = ((cfg0.win 3).blk t).view.read (Elt F) (prod3 (V c main_v18) (V c main_v27) (V c main_v26)) := by
  show (cfg0.win 3).cut (grid0.coords t) ((dat0 V c).after 3 t) = _
  rw [after0_3]
  unfold out0_3
  rw [View.canon_unit_zero no_offset]
  simp only [View.ld_unit_zero (S := S250x128) no_offset]
  rw [pay_eq]
  funext j
  obtain ⟨h0, h1, h2⟩ := emb_same t j
  show FloatOps.mulf (FloatOps.mulf (V c main_v18 (((cfg0.win 0).blk t).view.emb j)) (V c main_v27 (((cfg0.win 1).blk t).view.emb j)))
      (V c main_v26 (((cfg0.win 2).blk t).view.emb j))
    = FloatOps.mulf (FloatOps.mulf (V c main_v18 (((cfg0.win 3).blk t).view.emb j)) (V c main_v27 (((cfg0.win 3).blk t).view.emb j)))
      (V c main_v26 (((cfg0.win 3).blk t).view.emb j))
  rw [h0, h1, h2]

/-- An index of the output is in point t's block when its lane is one of the block's 128 lanes. -/
theorem mem_blk (t : Fin cfg0.N) (i : S250x3200.Idx) :
    i ∈ ((cfg0.win 3).blk t).view.set ↔ ∀ a : Fin 2, win0_3.index t a * S250x128.size a ≤ (i a).val ∧ (i a).val < win0_3.index t a * S250x128.size a + S250x128.size a := by
  show i ∈ ((View.whole main_v28).slice (win0_3.rect t)).set ↔ _
  rw [View.set_slice_whole, Rect.mem_set_unit]
  exact Iff.rfl

/-- Every lane of the output lies in one of the 25 blocks: lane l in block l / 128. -/
theorem cover (i : S250x3200.Idx) :
    ∃ t : Fin cfg0.N, (cfg0.win 3).flush t = true ∧ i ∈ ((cfg0.win 3).blk t).view.set := by
  have h0 : (i 0).val < 250 := (i 0).isLt
  have h1 : (i 1).val < 3200 := (i 1).isLt
  have ht : (i 1).val / 128 < cfg0.N := by rw [show cfg0.N = 25 from N_0]; omega
  refine ⟨⟨(i 1).val / 128, ht⟩, flush0_3 _, ?_⟩
  rw [mem_blk]
  obtain ⟨-, -, -, -, -, -, e6, e7⟩ := lanes ⟨(i 1).val / 128, ht⟩
  intro a
  match a with
  | ⟨0, _⟩ =>
    show win0_3.index ⟨(i 1).val / 128, ht⟩ (0 : Fin 2) * 250 ≤ (i 0).val ∧ (i 0).val < win0_3.index ⟨(i 1).val / 128, ht⟩ (0 : Fin 2) * 250 + 250
    rw [e6]; omega
  | ⟨1, _⟩ =>
    show win0_3.index ⟨(i 1).val / 128, ht⟩ (1 : Fin 2) * 128 ≤ (i 1).val ∧ (i 1).val < win0_3.index ⟨(i 1).val / 128, ht⟩ (1 : Fin 2) * 128 + 128
    rw [e7]; show (i 1).val / 128 * 128 ≤ (i 1).val ∧ (i 1).val < (i 1).val / 128 * 128 + 128; omega

/-- After the pass the output grid is the entrywise product of the three input grids as the pass found them. -/
theorem final (c : Dev nD) :
    (dat0 V c).arrAt 3 cfg0.N = prod3 (V c main_v18) (V c main_v27) (V c main_v26) :=
  (dat0 V c).arrAt_eq_of_cover 3 (prod3 (V c main_v18) (V c main_v27) (V c main_v26)) (fun t _ => flushed_eq V c t) cover

end Cert.KernelIdeal.NormWeight

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Scale1.lean ====
/-
  The first message pass. Its inputs are the gathered node features xg (one row of 128 numbers per edge) and the
  column w of normalised edge weights; the pass walks the 800000 edges in 100 blocks of 8000 rows, and in each block
  multiplies every row of xg by that row's weight. Block t is rows 8000 t … 8000 t + 7999 of all three arrays, the
  blocks tile the output, so after the pass the output holds, at row e and column q, xg(e, q) * w(e, 0): the array
  xg times the weight column spread along the rows.
-/
import proofs.«134726_j81200651698780_2_alg».proof.Proof.Gen.KernelIdeal.Frame
import Idealize.ShloMosaic.Lib.Pipeline.Value
import Idealize.ShloMosaic.Lib.ValueIdx
import proofs.«134726_j81200651698780_2_alg».proof.Proof.LibColumnInDim
import proofs.«134726_j81200651698780_2_alg».proof.Proof.LibKeepdims
import proofs.«134726_j81200651698780_2_alg».proof.Proof.Spec

noncomputable section

namespace Cert.KernelIdeal.Scale1

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem no_offset : (![0, 0] : Fin 2 → Nat) = fun _ => 0 := funext fun a => by fin_cases a <;> rfl

/-- What the body stores: the feature block times the block's weight column spread along each row. -/
theorem pay_eq (x0 : Vec F S8000x128 .f32) (x1 : Vec F S8000x1 .f32) :
    k1_pay1 x0 x1 = mulf x0 (broadcastTo S8000x128 x1 broadcasts_S8000x1_S8000x128) := by
  unfold k1_pay1
  simp only [shapeCast_self]

/-- All three windows move down the edges together: point t holds block row t, block column 0. -/
theorem rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row p, column q of the feature block at point t is row 8000 t + p, column q of the feature array. -/
theorem emb_feat (t : Fin cfg1.N) (p : Fin 8000) (q : Fin 128) (e : Fin 800000) (he : e.val = 8000 * t.val + p.val) :
    ((cfg1.win 0).blk t).view.emb (ix2 p q) = (ix2 e q : S800000x128.Idx) := by
  obtain ⟨e0, e1, -, -, -, -⟩ := rows t
  funext a; apply Fin.ext
  match a with
  | ⟨0, _⟩ => show win1_0.index t (0 : Fin 2) * 8000 + 1 * p.val = e.val; rw [e0, he]; omega
  | ⟨1, _⟩ => show win1_0.index t (1 : Fin 2) * 128 + 1 * q.val = q.val; rw [e1]; omega

/-- Row p of the weight block at point t is row 8000 t + p of the weight column. -/
theorem emb_weight (t : Fin cfg1.N) (p : Fin 8000) (u : Fin 1) (e : Fin 800000) (he : e.val = 8000 * t.val + p.val) :
    ((cfg1.win 1).blk t).view.emb (ix2 p u) = (ix2 e u : S800000x1.Idx) := by
  obtain ⟨-, -, e2, e3, -, -⟩ := rows t
  funext a; apply Fin.ext
  match a with
  | ⟨0, _⟩ => show win1_1.index t (0 : Fin 2) * 8000 + 1 * p.val = e.val; rw [e2, he]; omega
  | ⟨1, _⟩ => show win1_1.index t (1 : Fin 2) * 1 + 1 * u.val = u.val; rw [e3]; omega

/-- Row p, column q of the output block at point t is row 8000 t + p, column q of the output array. -/
theorem emb_out (t : Fin cfg1.N) (p : Fin 8000) (q : Fin 128) (e : Fin 800000) (he : e.val = 8000 * t.val + p.val) :
    ((cfg1.win 2).blk t).view.emb (ix2 p q) = (ix2 e q : S800000x128.Idx) := by
  obtain ⟨-, -, -, -, e4, e5⟩ := rows t
  funext a; apply Fin.ext
  match a with
  | ⟨0, _⟩ => show win1_2.index t (0 : Fin 2) * 8000 + 1 * p.val = e.val; rw [e4, he]; omega
  | ⟨1, _⟩ => show win1_2.index t (1 : Fin 2) * 128 + 1 * q.val = q.val; rw [e5]; omega

/-- What point t writes back is block t of the messages computed from the arrays as the pass finds them. -/
theorem flushed_eq (c : Dev nD) (t : Fin cfg1.N) :
    (dat1 V c).flushed 2 t = ((cfg1.win 2).blk t).view.read (Elt F) (Spec.msgs (V c main_v36) (V c main_v29)) := by
  show (cfg1.win 2).cut (grid1.coords t) ((dat1 V c).after 2 t) = _
  rw [after1_2]
  unfold out1_2
  rw [View.canon_unit_zero no_offset]
  simp only [View.ld_unit_zero (S := S8000x128) no_offset, View.ld_unit_zero (S := S8000x1) no_offset]
  rw [pay_eq]
  funext j
  obtain ⟨p, q, rfl⟩ : ∃ (p : Fin 8000) (q : Fin 128), j = ix2 p q := ⟨j 0, j 1, eq_ix2 j⟩
  have hlt : 8000 * t.val + p.val < 800000 := by
    have ht : t.val < 100 := lt_of_lt_of_eq t.isLt N_1
    have := p.isLt; omega
  show FloatOps.mulf (V c main_v36 (((cfg1.win 0).blk t).view.emb (ix2 p q)))
      (broadcastTo S8000x128 (iblk1 V c 1 t) broadcasts_S8000x1_S8000x128 (ix2 p q))
    = FloatOps.mulf (V c main_v36 (((cfg1.win 2).blk t).view.emb (ix2 p q)))
      (broadcastInDim S800000x128 ![0, 1] Spec.spread (V c main_v29) (((cfg1.win 2).blk t).view.emb (ix2 p q)))
  rw [emb_feat t p q ⟨_, hlt⟩ rfl, emb_out t p q ⟨_, hlt⟩ rfl]
  refine congrArg (FloatOps.mulf _) ?_
  refine (Cert.Keepdims.broadcastTo_a1_ab_apply (iblk1 V c 1 t) broadcasts_S8000x1_S8000x128 p q).trans ?_
  refine Eq.trans ?_ (Cert.Lib.ColumnInDim.spread_apply (by norm_num) Spec.spread (V c main_v29) ⟨_, hlt⟩ q).symm
  show V c main_v29 (((cfg1.win 1).blk t).view.emb (ix2 p (0 : Fin 1))) = _
  rw [emb_weight t p 0 ⟨_, hlt⟩ rfl]

/-- An index of the output is in point t's block when its row is one of the block's 8000 rows. -/
theorem mem_blk (t : Fin cfg1.N) (i : S800000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v37).slice (win1_2.rect t)).set ↔ _
  rw [View.set_slice_whole, Rect.mem_set_unit]
  exact Iff.rfl

/-- Every row of the output lies in one of the 100 blocks: row e in block e / 8000. -/
theorem cover (i : S800000x128.Idx) :
    ∃ t : Fin cfg1.N, (cfg1.win 2).flush t = true ∧ i ∈ ((cfg1.win 2).blk t).view.set := by
  have h0 : (i 0).val < 800000 := (i 0).isLt
  have h1 : (i 1).val < 128 := (i 1).isLt
  have ht : (i 0).val / 8000 < cfg1.N := by rw [show cfg1.N = 100 from N_1]; omega
  refine ⟨⟨(i 0).val / 8000, ht⟩, flush1_2 _, ?_⟩
  rw [mem_blk]
  obtain ⟨-, -, -, -, e4, e5⟩ := rows ⟨(i 0).val / 8000, ht⟩
  intro a
  match a with
  | ⟨0, _⟩ =>
    show win1_2.index ⟨(i 0).val / 8000, ht⟩ (0 : Fin 2) * 8000 ≤ (i 0).val ∧ (i 0).val < win1_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win1_2.index ⟨(i 0).val / 8000, ht⟩ (1 : Fin 2) * 128 ≤ (i 1).val ∧ (i 1).val < win1_2.index ⟨(i 0).val / 8000, ht⟩ (1 : Fin 2) * 128 + 128
    rw [e5]; omega

/-- After the pass the output array is the messages of the input arrays as the pass found them. -/
theorem final (c : Dev nD) :
    (dat1 V c).arrAt 2 cfg1.N = Spec.msgs (V c main_v36) (V c main_v29) :=
  (dat1 V c).arrAt_eq_of_cover 2 (Spec.msgs (V c main_v36) (V c main_v29)) (fun t _ => flushed_eq V c t) cover

end Cert.KernelIdeal.Scale1

end
-- ==== Proof.Scale2.lean ====
/-
  The second message pass. Its inputs are the gathered node features xg (one row of 128 numbers per edge) and the
  column w of normalised edge weights; the pass walks the 800000 edges in 100 blocks of 8000 rows, and in each block
  multiplies every row of xg by that row's weight. Block t is rows 8000 t … 8000 t + 7999 of all three arrays, the
  blocks tile the output, so after the pass the output holds, at row e and column q, xg(e, q) * w(e, 0): the array
  xg times the weight column spread along the rows.
-/
import proofs.«134726_j81200651698780_2_alg».proof.Proof.Gen.KernelIdeal.Frame
import Idealize.ShloMosaic.Lib.Pipeline.Value
import Idealize.ShloMosaic.Lib.ValueIdx
import proofs.«134726_j81200651698780_2_alg».proof.Proof.LibColumnInDim
import proofs.«134726_j81200651698780_2_alg».proof.Proof.LibKeepdims
import proofs.«134726_j81200651698780_2_alg».proof.Proof.Spec

noncomputable section

namespace Cert.KernelIdeal.Scale2

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem no_offset : (![0, 0] : Fin 2 → Nat) = fun _ => 0 := funext fun a => by fin_cases a <;> rfl

/-- What the body stores: the feature block times the block's weight column spread along each row. -/
theorem pay_eq (x0 : Vec F S8000x128 .f32) (x1 : Vec F S8000x1 .f32) :
    k2_pay1 x0 x1 = mulf x0 (broadcastTo S8000x128 x1 broadcasts_S8000x1_S8000x128) := by
  unfold k2_pay1
  simp only [shapeCast_self]

/-- All three windows move down the edges together: point t holds block row t, block column 0. -/
theorem rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p, column q of the feature block at point t is row 8000 t + p, column q of the feature array. -/
theorem emb_feat (t : Fin cfg2.N) (p : Fin 8000) (q : Fin 128) (e : Fin 800000) (he : e.val = 8000 * t.val + p.val) :
    ((cfg2.win 0).blk t).view.emb (ix2 p q) = (ix2 e q : S800000x128.Idx) := by
  obtain ⟨e0, e1, -, -, -, -⟩ := rows t
  funext a; apply Fin.ext
  match a with
  | ⟨0, _⟩ => show win2_0.index t (0 : Fin 2) * 8000 + 1 * p.val = e.val; rw [e0, he]; omega
  | ⟨1, _⟩ => show win2_0.index t (1 : Fin 2) * 128 + 1 * q.val = q.val; rw [e1]; omega

/-- Row p of the weight block at point t is row 8000 t + p of the weight column. -/
theorem emb_weight (t : Fin cfg2.N) (p : Fin 8000) (u : Fin 1) (e : Fin 800000) (he : e.val = 8000 * t.val + p.val) :
    ((cfg2.win 1).blk t).view.emb (ix2 p u) = (ix2 e u : S800000x1.Idx) := by
  obtain ⟨-, -, e2, e3, -, -⟩ := rows t
  funext a; apply Fin.ext
  match a with
  | ⟨0, _⟩ => show win2_1.index t (0 : Fin 2) * 8000 + 1 * p.val = e.val; rw [e2, he]; omega
  | ⟨1, _⟩ => show win2_1.index t (1 : Fin 2) * 1 + 1 * u.val = u.val; rw [e3]; omega

/-- Row p, column q of the output block at point t is row 8000 t + p, column q of the output array. -/
theorem emb_out (t : Fin cfg2.N) (p : Fin 8000) (q : Fin 128) (e : Fin 800000) (he : e.val = 8000 * t.val + p.val) :
    ((cfg2.win 2).blk t).view.emb (ix2 p q) = (ix2 e q : S800000x128.Idx) := by
  obtain ⟨-, -, -, -, e4, e5⟩ := rows t
  funext a; apply Fin.ext
  match a with
  | ⟨0, _⟩ => show win2_2.index t (0 : Fin 2) * 8000 + 1 * p.val = e.val; rw [e4, he]; omega
  | ⟨1, _⟩ => show win2_2.index t (1 : Fin 2) * 128 + 1 * q.val = q.val; rw [e5]; omega

/-- What point t writes back is block t of the messages computed from the arrays as the pass finds them. -/
theorem flushed_eq (c : Dev nD) (t : Fin cfg2.N) :
    (dat2 V c).flushed 2 t = ((cfg2.win 2).blk t).view.read (Elt F) (Spec.msgs (V c main_v47) (V c main_v29)) := by
  show (cfg2.win 2).cut (grid2.coords t) ((dat2 V c).after 2 t) = _
  rw [after2_2]
  unfold out2_2
  rw [View.canon_unit_zero no_offset]
  simp only [View.ld_unit_zero (S := S8000x128) no_offset, View.ld_unit_zero (S := S8000x1) no_offset]
  rw [pay_eq]
  funext j
  obtain ⟨p, q, rfl⟩ : ∃ (p : Fin 8000) (q : Fin 128), j = ix2 p q := ⟨j 0, j 1, eq_ix2 j⟩
  have hlt : 8000 * t.val + p.val < 800000 := by
    have ht : t.val < 100 := lt_of_lt_of_eq t.isLt N_2
    have := p.isLt; omega
  show FloatOps.mulf (V c main_v47 (((cfg2.win 0).blk t).view.emb (ix2 p q)))
      (broadcastTo S8000x128 (iblk2 V c 1 t) broadcasts_S8000x1_S8000x128 (ix2 p q))
    = FloatOps.mulf (V c main_v47 (((cfg2.win 2).blk t).view.emb (ix2 p q)))
      (broadcastInDim S800000x128 ![0, 1] Spec.spread (V c main_v29) (((cfg2.win 2).blk t).view.emb (ix2 p q)))
  rw [emb_feat t p q ⟨_, hlt⟩ rfl, emb_out t p q ⟨_, hlt⟩ rfl]
  refine congrArg (FloatOps.mulf _) ?_
  refine (Cert.Keepdims.broadcastTo_a1_ab_apply (iblk2 V c 1 t) broadcasts_S8000x1_S8000x128 p q).trans ?_
  refine Eq.trans ?_ (Cert.Lib.ColumnInDim.spread_apply (by norm_num) Spec.spread (V c main_v29) ⟨_, hlt⟩ q).symm
  show V c main_v29 (((cfg2.win 1).blk t).view.emb (ix2 p (0 : Fin 1))) = _
  rw [emb_weight t p 0 ⟨_, hlt⟩ rfl]

/-- An index of the output is in point t's block when its row is one of the block's 8000 rows. -/
theorem mem_blk (t : Fin cfg2.N) (i : S800000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v48).slice (win2_2.rect t)).set ↔ _
  rw [View.set_slice_whole, Rect.mem_set_unit]
  exact Iff.rfl

/-- Every row of the output lies in one of the 100 blocks: row e in block e / 8000. -/
theorem cover (i : S800000x128.Idx) :
    ∃ t : Fin cfg2.N, (cfg2.win 2).flush t = true ∧ i ∈ ((cfg2.win 2).blk t).view.set := by
  have h0 : (i 0).val < 800000 := (i 0).isLt
  have h1 : (i 1).val < 128 := (i 1).isLt
  have ht : (i 0).val / 8000 < cfg2.N := by rw [show cfg2.N = 100 from N_2]; omega
  refine ⟨⟨(i 0).val / 8000, ht⟩, flush2_2 _, ?_⟩
  rw [mem_blk]
  obtain ⟨-, -, -, -, e4, e5⟩ := rows ⟨(i 0).val / 8000, ht⟩
  intro a
  match a with
  | ⟨0, _⟩ =>
    show win2_2.index ⟨(i 0).val / 8000, ht⟩ (0 : Fin 2) * 8000 ≤ (i 0).val ∧ (i 0).val < win2_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win2_2.index ⟨(i 0).val / 8000, ht⟩ (1 : Fin 2) * 128 ≤ (i 1).val ∧ (i 1).val < win2_2.index ⟨(i 0).val / 8000, ht⟩ (1 : Fin 2) * 128 + 128
    rw [e5]; omega

/-- After the pass the output array is the messages of the input arrays as the pass found them. -/
theorem final (c : Dev nD) :
    (dat2 V c).arrAt 2 cfg2.N = Spec.msgs (V c main_v47) (V c main_v29) :=
  (dat2 V c).arrAt_eq_of_cover 2 (Spec.msgs (V c main_v47) (V c main_v29)) (fun t _ => flushed_eq V c t) cover

end Cert.KernelIdeal.Scale2

end
-- ==== Proof.Scale3.lean ====
/-
  The third message pass. Its inputs are the gathered node features xg (one row of 128 numbers per edge) and the
  column w of normalised edge weights; the pass walks the 800000 edges in 100 blocks of 8000 rows, and in each block
  multiplies every row of xg by that row's weight. Block t is rows 8000 t … 8000 t + 7999 of all three arrays, the
  blocks tile the output, so after the pass the output holds, at row e and column q, xg(e, q) * w(e, 0): the array
  xg times the weight column spread along the rows.
-/
import proofs.«134726_j81200651698780_2_alg».proof.Proof.Gen.KernelIdeal.Frame
import Idealize.ShloMosaic.Lib.Pipeline.Value
import Idealize.ShloMosaic.Lib.ValueIdx
import proofs.«134726_j81200651698780_2_alg».proof.Proof.LibColumnInDim
import proofs.«134726_j81200651698780_2_alg».proof.Proof.LibKeepdims
import proofs.«134726_j81200651698780_2_alg».proof.Proof.Spec

noncomputable section

namespace Cert.KernelIdeal.Scale3

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem no_offset : (![0, 0] : Fin 2 → Nat) = fun _ => 0 := funext fun a => by fin_cases a <;> rfl

/-- What the body stores: the feature block times the block's weight column spread along each row. -/
theorem pay_eq (x0 : Vec F S8000x128 .f32) (x1 : Vec F S8000x1 .f32) :
    k3_pay1 x0 x1 = mulf x0 (broadcastTo S8000x128 x1 broadcasts_S8000x1_S8000x128) := by
  unfold k3_pay1
  simp only [shapeCast_self]

/-- All three windows move down the edges together: point t holds block row t, block column 0. -/
theorem rows : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Row p, column q of the feature block at point t is row 8000 t + p, column q of the feature array. -/
theorem emb_feat (t : Fin cfg3.N) (p : Fin 8000) (q : Fin 128) (e : Fin 800000) (he : e.val = 8000 * t.val + p.val) :
    ((cfg3.win 0).blk t).view.emb (ix2 p q) = (ix2 e q : S800000x128.Idx) := by
  obtain ⟨e0, e1, -, -, -, -⟩ := rows t
  funext a; apply Fin.ext
  match a with
  | ⟨0, _⟩ => show win3_0.index t (0 : Fin 2) * 8000 + 1 * p.val = e.val; rw [e0, he]; omega
  | ⟨1, _⟩ => show win3_0.index t (1 : Fin 2) * 128 + 1 * q.val = q.val; rw [e1]; omega

/-- Row p of the weight block at point t is row 8000 t + p of the weight column. -/
theorem emb_weight (t : Fin cfg3.N) (p : Fin 8000) (u : Fin 1) (e : Fin 800000) (he : e.val = 8000 * t.val + p.val) :
    ((cfg3.win 1).blk t).view.emb (ix2 p u) = (ix2 e u : S800000x1.Idx) := by
  obtain ⟨-, -, e2, e3, -, -⟩ := rows t
  funext a; apply Fin.ext
  match a with
  | ⟨0, _⟩ => show win3_1.index t (0 : Fin 2) * 8000 + 1 * p.val = e.val; rw [e2, he]; omega
  | ⟨1, _⟩ => show win3_1.index t (1 : Fin 2) * 1 + 1 * u.val = u.val; rw [e3]; omega

/-- Row p, column q of the output block at point t is row 8000 t + p, column q of the output array. -/
theorem emb_out (t : Fin cfg3.N) (p : Fin 8000) (q : Fin 128) (e : Fin 800000) (he : e.val = 8000 * t.val + p.val) :
    ((cfg3.win 2).blk t).view.emb (ix2 p q) = (ix2 e q : S800000x128.Idx) := by
  obtain ⟨-, -, -, -, e4, e5⟩ := rows t
  funext a; apply Fin.ext
  match a with
  | ⟨0, _⟩ => show win3_2.index t (0 : Fin 2) * 8000 + 1 * p.val = e.val; rw [e4, he]; omega
  | ⟨1, _⟩ => show win3_2.index t (1 : Fin 2) * 128 + 1 * q.val = q.val; rw [e5]; omega

/-- What point t writes back is block t of the messages computed from the arrays as the pass finds them. -/
theorem flushed_eq (c : Dev nD) (t : Fin cfg3.N) :
    (dat3 V c).flushed 2 t = ((cfg3.win 2).blk t).view.read (Elt F) (Spec.msgs (V c main_v58) (V c main_v29)) := by
  show (cfg3.win 2).cut (grid3.coords t) ((dat3 V c).after 2 t) = _
  rw [after3_2]
  unfold out3_2
  rw [View.canon_unit_zero no_offset]
  simp only [View.ld_unit_zero (S := S8000x128) no_offset, View.ld_unit_zero (S := S8000x1) no_offset]
  rw [pay_eq]
  funext j
  obtain ⟨p, q, rfl⟩ : ∃ (p : Fin 8000) (q : Fin 128), j = ix2 p q := ⟨j 0, j 1, eq_ix2 j⟩
  have hlt : 8000 * t.val + p.val < 800000 := by
    have ht : t.val < 100 := lt_of_lt_of_eq t.isLt N_3
    have := p.isLt; omega
  show FloatOps.mulf (V c main_v58 (((cfg3.win 0).blk t).view.emb (ix2 p q)))
      (broadcastTo S8000x128 (iblk3 V c 1 t) broadcasts_S8000x1_S8000x128 (ix2 p q))
    = FloatOps.mulf (V c main_v58 (((cfg3.win 2).blk t).view.emb (ix2 p q)))
      (broadcastInDim S800000x128 ![0, 1] Spec.spread (V c main_v29) (((cfg3.win 2).blk t).view.emb (ix2 p q)))
  rw [emb_feat t p q ⟨_, hlt⟩ rfl, emb_out t p q ⟨_, hlt⟩ rfl]
  refine congrArg (FloatOps.mulf _) ?_
  refine (Cert.Keepdims.broadcastTo_a1_ab_apply (iblk3 V c 1 t) broadcasts_S8000x1_S8000x128 p q).trans ?_
  refine Eq.trans ?_ (Cert.Lib.ColumnInDim.spread_apply (by norm_num) Spec.spread (V c main_v29) ⟨_, hlt⟩ q).symm
  show V c main_v29 (((cfg3.win 1).blk t).view.emb (ix2 p (0 : Fin 1))) = _
  rw [emb_weight t p 0 ⟨_, hlt⟩ rfl]

/-- An index of the output is in point t's block when its row is one of the block's 8000 rows. -/
theorem mem_blk (t : Fin cfg3.N) (i : S800000x128.Idx) :
    i ∈ ((cfg3.win 2).blk t).view.set ↔ ∀ a : Fin 2, win3_2.index t a * S8000x128.size a ≤ (i a).val ∧ (i a).val < win3_2.index t a * S8000x128.size a + S8000x128.size a := by
  show i ∈ ((View.whole main_v59).slice (win3_2.rect t)).set ↔ _
  rw [View.set_slice_whole, Rect.mem_set_unit]
  exact Iff.rfl

/-- Every row of the output lies in one of the 100 blocks: row e in block e / 8000. -/
theorem cover (i : S800000x128.Idx) :
    ∃ t : Fin cfg3.N, (cfg3.win 2).flush t = true ∧ i ∈ ((cfg3.win 2).blk t).view.set := by
  have h0 : (i 0).val < 800000 := (i 0).isLt
  have h1 : (i 1).val < 128 := (i 1).isLt
  have ht : (i 0).val / 8000 < cfg3.N := by rw [show cfg3.N = 100 from N_3]; omega
  refine ⟨⟨(i 0).val / 8000, ht⟩, flush3_2 _, ?_⟩
  rw [mem_blk]
  obtain ⟨-, -, -, -, e4, e5⟩ := rows ⟨(i 0).val / 8000, ht⟩
  intro a
  match a with
  | ⟨0, _⟩ =>
    show win3_2.index ⟨(i 0).val / 8000, ht⟩ (0 : Fin 2) * 8000 ≤ (i 0).val ∧ (i 0).val < win3_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win3_2.index ⟨(i 0).val / 8000, ht⟩ (1 : Fin 2) * 128 ≤ (i 1).val ∧ (i 1).val < win3_2.index ⟨(i 0).val / 8000, ht⟩ (1 : Fin 2) * 128 + 128
    rw [e5]; omega

/-- After the pass the output array is the messages of the input arrays as the pass found them. -/
theorem final (c : Dev nD) :
    (dat3 V c).arrAt 2 cfg3.N = Spec.msgs (V c main_v58) (V c main_v29) :=
  (dat3 V c).arrAt_eq_of_cover 2 (Spec.msgs (V c main_v58) (V c main_v29)) (fun t _ => flushed_eq V c t) cover

end Cert.KernelIdeal.Scale3

end
-- ==== Proof.Chain.lean ====
/-
  The kernel program's buffers, boundary by boundary. Between its five tiled passes the program runs stretches of
  whole-array operations; each boundary's contents are the previous boundary's with that stretch's operations, or that
  pass's write-backs, applied. Followed from the launch memory to the end this gives, one buffer at a time:

    the edge sources and targets, read off the edge list;
    the three lane-dense grids the edge-weight pass multiplies, and their product re-laid as the weight column, which
      is the column of normalised edge weights;
    for each hop: the rows gathered at the sources, the messages (those rows times the weight column), and their sums
      at the targets — the propagated features;
    the row of column means; and the assembled output.

  A buffer that a stretch or a pass does not write keeps its contents, which is how the edge ends, the weight column
  and the earlier hops are still there when a later step reads them.
-/
import proofs.«134726_j81200651698780_2_alg».proof.Proof.Gen.KernelIdeal.Frame
import proofs.«134726_j81200651698780_2_alg».proof.Proof.Spec
import proofs.«134726_j81200651698780_2_alg».proof.Proof.EdgeLayout
import proofs.«134726_j81200651698780_2_alg».proof.Proof.NormWeight
import proofs.«134726_j81200651698780_2_alg».proof.Proof.Scale1
import proofs.«134726_j81200651698780_2_alg».proof.Proof.Scale2
import proofs.«134726_j81200651698780_2_alg».proof.Proof.Scale3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.KernelIdeal.Spec

variable {F : FTy → Type} [FloatOps F]
variable (m : (ℓ : Loc nD τ sig) → Buf (Elt F) ℓ) (ρ : Dev nD → PrngReg) (c : Dev nD)

/-- The three arguments as launched: node features, edge list, edge weights. -/
abbrev a0 : Floats F S50000x128 := m ((c : Thread nD τ).loc main_arg0)
abbrev a1 : Ints F S2x800000 := m ((c : Thread nD τ).loc main_arg1)
abbrev a2 : Floats F S800000 := m ((c : Thread nD τ).loc main_arg2)

theorem W3_v18 : W3 m ρ c (Proc.devRef .tc main_v18) = shapeCast S250x3200 (dinvAt (a1 m c) (a2 m c) (src (a1 m c))) shapeCasts_S800000_S250x3200 := by
  show StableHlo.after hostOps0_2 (StableHlo.after hostOps0_1 (StableHlo.after hostOps0 (W0 m ρ c))) (Proc.devRef .tc main_v18) = _
  after_results_simp <;> rfl

theorem W3_v27 : W3 m ρ c (Proc.devRef .tc main_v27) = shapeCast S250x3200 (a2 m c) shapeCasts_S800000_S250x3200 := by
  show StableHlo.after hostOps0_2 (StableHlo.after hostOps0_1 (StableHlo.after hostOps0 (W0 m ρ c))) (Proc.devRef .tc main_v27) = _
  after_results_simp <;> rfl

theorem W3_v26 : W3 m ρ c (Proc.devRef .tc main_v26) = shapeCast S250x3200 (dinvAt (a1 m c) (a2 m c) (tgt (a1 m c))) shapeCasts_S800000_S250x3200 := by
  show StableHlo.after hostOps0_2 (StableHlo.after hostOps0_1 (StableHlo.after hostOps0 (W0 m ρ c))) (Proc.devRef .tc main_v26) = _
  after_results_simp <;> rfl

theorem W3_v1 : W3 m ρ c (Proc.devRef .tc main_v1) = src (a1 m c) := by
  show StableHlo.after hostOps0_2 (StableHlo.after hostOps0_1 (StableHlo.after hostOps0 (W0 m ρ c))) (Proc.devRef .tc main_v1) = _
  after_results_simp <;> rfl

theorem W3_v3 : W3 m ρ c (Proc.devRef .tc main_v3) = tgt (a1 m c) := by
  show StableHlo.after hostOps0_2 (StableHlo.after hostOps0_1 (StableHlo.after hostOps0 (W0 m ρ c))) (Proc.devRef .tc main_v3) = _
  after_results_simp <;> rfl

theorem W3_arg0 : W3 m ρ c (Proc.devRef .tc main_arg0) = a0 m c := by
  show StableHlo.after hostOps0_2 (StableHlo.after hostOps0_1 (StableHlo.after hostOps0 (W0 m ρ c))) (Proc.devRef .tc main_arg0) = _
  after_results_simp <;> rfl

theorem W4_v28 : W4 m ρ c (Proc.devRef .tc main_v28) = NormWeight.prod3 (shapeCast S250x3200 (dinvAt (a1 m c) (a2 m c) (src (a1 m c))) shapeCasts_S800000_S250x3200) (shapeCast S250x3200 (a2 m c) shapeCasts_S800000_S250x3200) (shapeCast S250x3200 (dinvAt (a1 m c) (a2 m c) (tgt (a1 m c))) shapeCasts_S800000_S250x3200) := by
  refine ((W4_arr m ρ c 3).trans (NormWeight.final (V3 m ρ) c)).trans ?_
  show NormWeight.prod3 (W3 m ρ c (Proc.devRef .tc main_v18)) (W3 m ρ c (Proc.devRef .tc main_v27)) (W3 m ρ c (Proc.devRef .tc main_v26)) = _
  rw [W3_v18 m ρ c, W3_v27 m ρ c, W3_v26 m ρ c]

theorem W4_v1 : W4 m ρ c (Proc.devRef .tc main_v1) = src (a1 m c) :=
  (W4_of_ne m ρ c main_v1 (by decide)).trans (W3_v1 m ρ c)

theorem W4_v3 : W4 m ρ c (Proc.devRef .tc main_v3) = tgt (a1 m c) :=
  (W4_of_ne m ρ c main_v3 (by decide)).trans (W3_v3 m ρ c)

theorem W4_arg0 : W4 m ρ c (Proc.devRef .tc main_arg0) = a0 m c :=
  (W4_of_ne m ρ c main_arg0 (by decide)).trans (W3_arg0 m ρ c)

theorem W5_v29 : W5 m ρ c (Proc.devRef .tc main_v29) = weights (a1 m c) (a2 m c) := by
  show StableHlo.after hostOps1 (W4 m ρ c) (Proc.devRef .tc main_v29) = _
  after_results
  rw [W4_v28 m ρ c]
  exact Cert.EdgeLayout.normWeight_relayout (dinvAt (a1 m c) (a2 m c) (src (a1 m c))) (a2 m c) (dinvAt (a1 m c) (a2 m c) (tgt (a1 m c)))
    shapeCasts_S800000_S250x3200 shapeCasts_S250x3200_S800000x1 bcast_S800000_S800000x1_0

theorem W5_v36 : W5 m ρ c (Proc.devRef .tc main_v36) = gatherRows (a0 m c) (a1 m c) := by
  show StableHlo.after hostOps1 (W4 m ρ c) (Proc.devRef .tc main_v36) = _
  after_results
  rw [W4_arg0 m ρ c, W4_v1 m ρ c]
  rfl

theorem W5_v1 : W5 m ρ c (Proc.devRef .tc main_v1) = src (a1 m c) := by
  refine Eq.trans ?_ (W4_v1 m ρ c)
  show StableHlo.after hostOps1 (W4 m ρ c) (Proc.devRef .tc main_v1) = _
  after_results

theorem W5_v3 : W5 m ρ c (Proc.devRef .tc main_v3) = tgt (a1 m c) := by
  refine Eq.trans ?_ (W4_v3 m ρ c)
  show StableHlo.after hostOps1 (W4 m ρ c) (Proc.devRef .tc main_v3) = _
  after_results

theorem W5_arg0 : W5 m ρ c (Proc.devRef .tc main_arg0) = a0 m c := by
  refine Eq.trans ?_ (W4_arg0 m ρ c)
  show StableHlo.after hostOps1 (W4 m ρ c) (Proc.devRef .tc main_arg0) = _
  after_results

theorem W6_v37 : W6 m ρ c (Proc.devRef .tc main_v37) = msgs (gatherRows (a0 m c) (a1 m c)) (weights (a1 m c) (a2 m c)) := by
  refine ((W6_arr m ρ c 2).trans (Scale1.final (V5 m ρ) c)).trans ?_
  show msgs (W5 m ρ c (Proc.devRef .tc main_v36)) (W5 m ρ c (Proc.devRef .tc main_v29)) = _
  rw [W5_v36 m ρ c, W5_v29 m ρ c]

theorem W6_v1 : W6 m ρ c (Proc.devRef .tc main_v1) = src (a1 m c) :=
  (W6_of_ne m ρ c main_v1 (by decide)).trans (W5_v1 m ρ c)

theorem W6_v3 : W6 m ρ c (Proc.devRef .tc main_v3) = tgt (a1 m c) :=
  (W6_of_ne m ρ c main_v3 (by decide)).trans (W5_v3 m ρ c)

theorem W6_v29 : W6 m ρ c (Proc.devRef .tc main_v29) = weights (a1 m c) (a2 m c) :=
  ((W6_arr m ρ c 1).trans (((dat1 (V5 m ρ) c).arrAt_in 1 rfl _).trans (A_eq1 (V5 m ρ) c 1))).trans (W5_v29 m ρ c)

theorem W6_arg0 : W6 m ρ c (Proc.devRef .tc main_arg0) = a0 m c :=
  (W6_of_ne m ρ c main_arg0 (by decide)).trans (W5_arg0 m ρ c)

theorem W7_v40 : W7 m ρ c (Proc.devRef .tc main_v40) = hop (a1 m c) (a2 m c) (a0 m c) := by
  show StableHlo.after hostOps2 (W6 m ρ c) (Proc.devRef .tc main_v40) = _
  after_results
  rw [W6_v3 m ρ c, W6_v37 m ρ c]
  rfl

theorem W7_v47 : W7 m ρ c (Proc.devRef .tc main_v47) = gatherRows (hop (a1 m c) (a2 m c) (a0 m c)) (a1 m c) := by
  show StableHlo.after hostOps2 (W6 m ρ c) (Proc.devRef .tc main_v47) = _
  after_results
  rw [W6_v3 m ρ c, W6_v37 m ρ c, W6_v1 m ρ c]
  rfl

theorem W7_v1 : W7 m ρ c (Proc.devRef .tc main_v1) = src (a1 m c) := by
  refine Eq.trans ?_ (W6_v1 m ρ c)
  show StableHlo.after hostOps2 (W6 m ρ c) (Proc.devRef .tc main_v1) = _
  after_results

theorem W7_v3 : W7 m ρ c (Proc.devRef .tc main_v3) = tgt (a1 m c) := by
  refine Eq.trans ?_ (W6_v3 m ρ c)
  show StableHlo.after hostOps2 (W6 m ρ c) (Proc.devRef .tc main_v3) = _
  after_results

theorem W7_v29 : W7 m ρ c (Proc.devRef .tc main_v29) = weights (a1 m c) (a2 m c) := by
  refine Eq.trans ?_ (W6_v29 m ρ c)
  show StableHlo.after hostOps2 (W6 m ρ c) (Proc.devRef .tc main_v29) = _
  after_results

theorem W7_arg0 : W7 m ρ c (Proc.devRef .tc main_arg0) = a0 m c := by
  refine Eq.trans ?_ (W6_arg0 m ρ c)
  show StableHlo.after hostOps2 (W6 m ρ c) (Proc.devRef .tc main_arg0) = _
  after_results

theorem W8_v48 : W8 m ρ c (Proc.devRef .tc main_v48) = msgs (gatherRows (hop (a1 m c) (a2 m c) (a0 m c)) (a1 m c)) (weights (a1 m c) (a2 m c)) := by
  refine ((W8_arr m ρ c 2).trans (Scale2.final (V7 m ρ) c)).trans ?_
  show msgs (W7 m ρ c (Proc.devRef .tc main_v47)) (W7 m ρ c (Proc.devRef .tc main_v29)) = _
  rw [W7_v47 m ρ c, W7_v29 m ρ c]

theorem W8_v1 : W8 m ρ c (Proc.devRef .tc main_v1) = src (a1 m c) :=
  (W8_of_ne m ρ c main_v1 (by decide)).trans (W7_v1 m ρ c)

theorem W8_v3 : W8 m ρ c (Proc.devRef .tc main_v3) = tgt (a1 m c) :=
  (W8_of_ne m ρ c main_v3 (by decide)).trans (W7_v3 m ρ c)

theorem W8_v29 : W8 m ρ c (Proc.devRef .tc main_v29) = weights (a1 m c) (a2 m c) :=
  ((W8_arr m ρ c 1).trans (((dat2 (V7 m ρ) c).arrAt_in 1 rfl _).trans (A_eq2 (V7 m ρ) c 1))).trans (W7_v29 m ρ c)

theorem W8_v40 : W8 m ρ c (Proc.devRef .tc main_v40) = hop (a1 m c) (a2 m c) (a0 m c) :=
  (W8_of_ne m ρ c main_v40 (by decide)).trans (W7_v40 m ρ c)

theorem W8_arg0 : W8 m ρ c (Proc.devRef .tc main_arg0) = a0 m c :=
  (W8_of_ne m ρ c main_arg0 (by decide)).trans (W7_arg0 m ρ c)

end Cert.KernelIdeal.Chain

end
-- ==== Proof.LibRowInDim.lean ====
/-
  The row forms of `broadcast_in_dim`, read at an index given by coordinates: a vector `[b]` laid as the row
  `[1, b]` (its axis sent to axis 1), and a row `[1, b]` repeated down the rows to `[a, b]` (axes sent to
  themselves). This is how a per-column quantity — a bias — is added to every row of a matrix: both read the
  operand at the column coordinate alone. (`b ≠ 1`: on an axis of extent one a broadcast reads coordinate 0
  whatever the index, and the statements would need no hypothesis but another proof.)
-/
import Idealize.ShloMosaic.Lib.Pipeline.Value
import Idealize.ShloMosaic.Lib.ValueIdx

namespace Cert.Lib.RowInDim

open Idealize.ShloMosaic Idealize.ShloMosaic.ValueIdx

variable {α : Type}

/-- A vector `[b]` laid as the row `[1, b]` reads, at `(u, q)`, the vector at `q`. -/
theorem row_apply {b : ℕ} (hb : b ≠ 1) (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) (fun a => match a with
    | ⟨0, _⟩ => by show q.val = if b = 1 then 0 else q.val; rw [if_neg hb])

/-- A row `[1, b]` repeated down the rows to `[a, b]` reads, at `(P, q)`, the row's entry of column `q`. -/
theorem repeat_apply {a b : ℕ} (hb : b ≠ 1) (h : (⟨2, ![1, b]⟩ : Shape).BroadcastsInDim ⟨2, ![a, b]⟩ ![0, 1])
    (v : (⟨2, ![1, b]⟩ : Shape).Idx → α) (P : Fin a) (q : Fin b) :
    broadcastInDim ⟨2, ![a, b]⟩ ![0, 1] h v (ix2 P q) = v (ix2 (0 : Fin 1) q) :=
  broadcastInDim_apply _ h v (ix2 P q) (ix2 (0 : Fin 1) q) (fun ax => match ax with
    | ⟨0, _⟩ => by show 0 = if (1 : ℕ) = 1 then 0 else P.val; rw [if_pos rfl]
    | ⟨1, _⟩ => by show q.val = if b = 1 then 0 else q.val; rw [if_neg hb])

end Cert.Lib.RowInDim
-- ==== Proof.Assemble.lean ====
/-
  The assembly pass. Its inputs are the node features x, the three propagated feature arrays x1, x2, x3 (50000 rows of
  128 numbers each) and the one row of column means; the pass walks the nodes in 25 blocks of 2000 rows and, in each
  block, lays the four feature blocks side by side in columns 0-127, 128-255, 256-383, 384-511 and fills columns
  512-639 of every row with the row of means. Block t is rows 2000 t … 2000 t + 1999, the blocks tile the output, so
  after the pass the output is the five arrays [x | x1 | x2 | x3 | means repeated down the rows] joined along the
  columns.
-/
import proofs.«134726_j81200651698780_2_alg».proof.Proof.Gen.KernelIdeal.Frame
import Idealize.ShloMosaic.Lib.Pipeline.Value
import Idealize.ShloMosaic.Lib.ValueIdx
import Idealize.ShloMosaic.Lib.ValueLayout
import proofs.«134726_j81200651698780_2_alg».proof.Proof.LibRowInDim
import proofs.«134726_j81200651698780_2_alg».proof.Proof.Spec

noncomputable section

namespace Cert.KernelIdeal.Assemble

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))
variable (hcat : Shape.Concatenates [S50000x128, S50000x128, S50000x128, S50000x128, S50000x128] S50000x640 (1 : Fin 2))

theorem no_offset : (![0, 0] : Fin 2 → Nat) = fun _ => 0 := funext fun a => by fin_cases a <;> rfl

variable {α : Type}

/-- Five arrays of 128 columns joined along the columns. -/
abbrev joined (x0 x1 x2 x3 x4 : S50000x128.Idx → α) : S50000x640.Idx → α :=
  concatenate S50000x640 1 [⟨S50000x128, x0⟩, ⟨S50000x128, x1⟩, ⟨S50000x128, x2⟩, ⟨S50000x128, x3⟩, ⟨S50000x128, x4⟩] hcat

/-- Column 128 k + q of the joined array is column q of the k-th piece (k = 0 … 4). -/
theorem joined_apply (x0 x1 x2 x3 x4 : S50000x128.Idx → α) (n : Fin 50000) (q : Fin 128) (col : Fin 640) :
    (col.val = q.val → joined hcat x0 x1 x2 x3 x4 (ix2 n col) = x0 (ix2 n q))
    ∧ (col.val = 128 + q.val → joined hcat x0 x1 x2 x3 x4 (ix2 n col) = x1 (ix2 n q))
    ∧ (col.val = 256 + q.val → joined hcat x0 x1 x2 x3 x4 (ix2 n col) = x2 (ix2 n q))
    ∧ (col.val = 384 + q.val → joined hcat x0 x1 x2 x3 x4 (ix2 n col) = x3 (ix2 n q))
    ∧ (col.val = 512 + q.val → joined hcat x0 x1 x2 x3 x4 (ix2 n col) = x4 (ix2 n q)) := by
  have hoff : ∀ b : Fin 2, b.cast (rfl : S50000x128.rank = S50000x640.rank) ≠ (1 : Fin 2) →
      ((ix2 n q : S50000x128.Idx) b).val = ((ix2 n col : S50000x640.Idx) (b.cast rfl)).val := by
    intro b hb
    match b with
    | ⟨0, _⟩ => rfl
    | ⟨1, _⟩ => exact absurd rfl hb
  refine ⟨fun h => ?_, fun h => ?_, fun h => ?_, fun h => ?_, fun h => ?_⟩
  · exact concatenate_apply_piece (t := S50000x640) (1 : Fin 2) ([⟨S50000x128, x0⟩, ⟨S50000x128, x1⟩, ⟨S50000x128, x2⟩, ⟨S50000x128, x3⟩, ⟨S50000x128, x4⟩] : List ((s : Shape) × (s.Idx → α))) hcat (ix2 n col) 0 (by show 0 < 5; decide) S50000x128 x0 rfl rfl 0 (by rfl) (ix2 n q) hoff
      (by show 0 + q.val = col.val; omega)
  · exact concatenate_apply_piece (t := S50000x640) (1 : Fin 2) ([⟨S50000x128, x0⟩, ⟨S50000x128, x1⟩, ⟨S50000x128, x2⟩, ⟨S50000x128, x3⟩, ⟨S50000x128, x4⟩] : List ((s : Shape) × (s.Idx → α))) hcat (ix2 n col) 1 (by show 1 < 5; decide) S50000x128 x1 rfl rfl 128 (by rfl) (ix2 n q) hoff
      (by show 128 + q.val = col.val; omega)
  · exact concatenate_apply_piece (t := S50000x640) (1 : Fin 2) ([⟨S50000x128, x0⟩, ⟨S50000x128, x1⟩, ⟨S50000x128, x2⟩, ⟨S50000x128, x3⟩, ⟨S50000x128, x4⟩] : List ((s : Shape) × (s.Idx → α))) hcat (ix2 n col) 2 (by show 2 < 5; decide) S50000x128 x2 rfl rfl 256 (by rfl) (ix2 n q) hoff
      (by show 256 + q.val = col.val; omega)
  · exact concatenate_apply_piece (t := S50000x640) (1 : Fin 2) ([⟨S50000x128, x0⟩, ⟨S50000x128, x1⟩, ⟨S50000x128, x2⟩, ⟨S50000x128, x3⟩, ⟨S50000x128, x4⟩] : List ((s : Shape) × (s.Idx → α))) hcat (ix2 n col) 3 (by show 3 < 5; decide) S50000x128 x3 rfl rfl 384 (by rfl) (ix2 n q) hoff
      (by show 384 + q.val = col.val; omega)
  · exact concatenate_apply_piece (t := S50000x640) (1 : Fin 2) ([⟨S50000x128, x0⟩, ⟨S50000x128, x1⟩, ⟨S50000x128, x2⟩, ⟨S50000x128, x3⟩, ⟨S50000x128, x4⟩] : List ((s : Shape) × (s.Idx → α))) hcat (ix2 n col) 4 (by show 4 < 5; decide) S50000x128 x4 rfl rfl 512 (by rfl) (ix2 n q) hoff
      (by show 512 + q.val = col.val; omega)

/-- The stored pieces: the three propagated blocks as loaded, and the row of means repeated down the block's rows. -/
theorem pay1_eq (x : Vec F S2000x128 .f32) : k4_pay1 x = x := by unfold k4_pay1; simp only [shapeCast_self]
theorem pay2_eq (x : Vec F S2000x128 .f32) : k4_pay2 x = x := by unfold k4_pay2; simp only [shapeCast_self]
theorem pay3_eq (x : Vec F S2000x128 .f32) : k4_pay3 x = x := by unfold k4_pay3; simp only [shapeCast_self]
theorem pay4_eq (x : Vec F S1x128 .f32) : k4_pay4 x = broadcastTo S2000x128 x broadcasts_S1x128_S2000x128 := by
  unfold k4_pay4; simp only [shapeCast_self]

/-- The feature windows and the output move down the nodes together (block row t, block column 0); the window of
    means stays on its one block. -/
theorem rows : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p, column q of a feature block at point t is row 2000 t + p, column q of its array. -/
theorem emb_feat (t : Fin cfg4.N) (p : Fin 2000) (q : Fin 128) (n : Fin 50000) (hn : n.val = 2000 * t.val + p.val) :
    ((cfg4.win 0).blk t).view.emb (ix2 p q) = (ix2 n q : S50000x128.Idx)
    ∧ ((cfg4.win 1).blk t).view.emb (ix2 p q) = (ix2 n q : S50000x128.Idx)
    ∧ ((cfg4.win 2).blk t).view.emb (ix2 p q) = (ix2 n q : S50000x128.Idx)
    ∧ ((cfg4.win 3).blk t).view.emb (ix2 p q) = (ix2 n q : S50000x128.Idx) := by
  obtain ⟨e0, e1, e2, e3, e4, e5, e6, e7, -, -, -, -⟩ := rows t
  refine ⟨?_, ?_, ?_, ?_⟩ <;> (funext a; apply Fin.ext)
  · match a with
    | ⟨0, _⟩ => show win4_0.index t (0 : Fin 2) * 2000 + 1 * p.val = n.val; rw [e0, hn]; omega
    | ⟨1, _⟩ => show win4_0.index t (1 : Fin 2) * 128 + 1 * q.val = q.val; rw [e1]; omega
  · match a with
    | ⟨0, _⟩ => show win4_1.index t (0 : Fin 2) * 2000 + 1 * p.val = n.val; rw [e2, hn]; omega
    | ⟨1, _⟩ => show win4_1.index t (1 : Fin 2) * 128 + 1 * q.val = q.val; rw [e3]; omega
  · match a with
    | ⟨0, _⟩ => show win4_2.index t (0 : Fin 2) * 2000 + 1 * p.val = n.val; rw [e4, hn]; omega
    | ⟨1, _⟩ => show win4_2.index t (1 : Fin 2) * 128 + 1 * q.val = q.val; rw [e5]; omega
  · match a with
    | ⟨0, _⟩ => show win4_3.index t (0 : Fin 2) * 2000 + 1 * p.val = n.val; rw [e6, hn]; omega
    | ⟨1, _⟩ => show win4_3.index t (1 : Fin 2) * 128 + 1 * q.val = q.val; rw [e7]; omega

/-- The block of means at any point is the whole row of means. -/
theorem emb_mean (t : Fin cfg4.N) (u : Fin 1) (q : Fin 128) :
    ((cfg4.win 4).blk t).view.emb (ix2 u q) = (ix2 u q : S1x128.Idx) := by
  obtain ⟨-, -, -, -, -, -, -, -, e8, e9, -, -⟩ := rows t
  funext a; apply Fin.ext
  match a with
  | ⟨0, _⟩ => show win4_4.index t (0 : Fin 2) * 1 + 1 * u.val = u.val; rw [e8]; omega
  | ⟨1, _⟩ => show win4_4.index t (1 : Fin 2) * 128 + 1 * q.val = q.val; rw [e9]; omega

/-- Row p, column col of the output block at point t is row 2000 t + p, column col of the output. -/
theorem emb_out (t : Fin cfg4.N) (p : Fin 2000) (col : Fin 640) (n : Fin 50000) (hn : n.val = 2000 * t.val + p.val) :
    ((cfg4.win 5).blk t).view.emb (ix2 p col) = (ix2 n col : S50000x640.Idx) := by
  obtain ⟨-, -, -, -, -, -, -, -, -, -, e10, e11⟩ := rows t
  funext a; apply Fin.ext
  match a with
  | ⟨0, _⟩ => show win4_5.index t (0 : Fin 2) * 2000 + 1 * p.val = n.val; rw [e10, hn]; omega
  | ⟨1, _⟩ => show win4_5.index t (1 : Fin 2) * 640 + 1 * col.val = col.val; rw [e11]; omega

/-- Row p, column q of the store at column offset o of the output block is row p, column o + q of the block. -/
theorem rect_emb (o : Nat) (inb : ∀ a, (![0, o] : Fin 2 → Nat) a + S2000x128.size a ≤ S2000x640.size a)
    (p : Fin 2000) (q : Fin 128) (col : Fin 640) (hc : col.val = o + q.val) :
    (Rect.unit (s := S2000x640) ![0, o] S2000x128.size inb).emb (ix2 p q) = (ix2 p col : S2000x640.Idx) := by
  funext a; apply Fin.ext
  match a with
  | ⟨0, _⟩ => simp only [Rect.emb_apply, Rect.off_unit, Rect.stride_unit]; show 0 + 1 * p.val = p.val; omega
  | ⟨1, _⟩ => simp only [Rect.emb_apply, Rect.off_unit, Rect.stride_unit]; show o + 1 * q.val = col.val; omega

/-- The last store: the row of means repeated down the block's rows lands in columns 512-639, where the joined array holds the means repeated down all rows. -/
theorem piece_mean (c : Dev nD) (t : Fin cfg4.N) (p : Fin 2000) (q : Fin 128) :
    broadcastTo S2000x128 (iblk4 V c 4 t) broadcasts_S1x128_S2000x128 (ix2 p q)
      = joined Spec.joins (V c main_arg0) (V c main_v40) (V c main_v51) (V c main_v62)
        (broadcastInDim S50000x128 ![0, 1] Spec.repeated (V c main_v66)) (((cfg4.win 5).blk t).view.emb (r4_6.emb (ix2 p q))) := by
  have hlt : 2000 * t.val + p.val < 50000 := by
    have ht : t.val < 25 := lt_of_lt_of_eq t.isLt N_4
    have := p.isLt; omega
  have hq : 512 + q.val < 640 := by have := q.isLt; omega
  rw [rect_emb 512 _ p q ⟨_, hq⟩ rfl, emb_out t p ⟨_, hq⟩ ⟨_, hlt⟩ rfl,
    (joined_apply Spec.joins _ _ _ _ _ ⟨_, hlt⟩ q ⟨_, hq⟩).2.2.2.2 rfl]
  rw [Cert.Lib.RowInDim.repeat_apply (by norm_num) Spec.repeated _ ⟨_, hlt⟩ q]
  refine (broadcastTo_1b_ab_apply (iblk4 V c 4 t) broadcasts_S1x128_S2000x128 p q).trans ?_
  show V c main_v66 (((cfg4.win 4).blk t).view.emb (ix2 (0 : Fin 1) q)) = _
  rw [emb_mean t 0 q]

/-- The fourth store: the block of the third hop lands in columns 384-511. -/
theorem piece_hop3 (c : Dev nD) (t : Fin cfg4.N) (p : Fin 2000) (q : Fin 128) :
    iblk4 V c 3 t (ix2 p q)
      = joined Spec.joins (V c main_arg0) (V c main_v40) (V c main_v51) (V c main_v62)
        (broadcastInDim S50000x128 ![0, 1] Spec.repeated (V c main_v66)) (((cfg4.win 5).blk t).view.emb (r4_4.emb (ix2 p q))) := by
  have hlt : 2000 * t.val + p.val < 50000 := by
    have ht : t.val < 25 := lt_of_lt_of_eq t.isLt N_4
    have := p.isLt; omega
  have hq : 384 + q.val < 640 := by have := q.isLt; omega
  rw [rect_emb 384 _ p q ⟨_, hq⟩ rfl, emb_out t p ⟨_, hq⟩ ⟨_, hlt⟩ rfl,
    (joined_apply Spec.joins _ _ _ _ _ ⟨_, hlt⟩ q ⟨_, hq⟩).2.2.2.1 rfl]
  show V c main_v62 (((cfg4.win 3).blk t).view.emb (ix2 p q)) = _
  rw [(emb_feat t p q ⟨_, hlt⟩ rfl).2.2.2]

/-- The third store: the block of the second hop lands in columns 256-383. -/
theorem piece_hop2 (c : Dev nD) (t : Fin cfg4.N) (p : Fin 2000) (q : Fin 128) :
    iblk4 V c 2 t (ix2 p q)
      = joined Spec.joins (V c main_arg0) (V c main_v40) (V c main_v51) (V c main_v62)
        (broadcastInDim S50000x128 ![0, 1] Spec.repeated (V c main_v66)) (((cfg4.win 5).blk t).view.emb (r4_3.emb (ix2 p q))) := by
  have hlt : 2000 * t.val + p.val < 50000 := by
    have ht : t.val < 25 := lt_of_lt_of_eq t.isLt N_4
    have := p.isLt; omega
  have hq : 256 + q.val < 640 := by have := q.isLt; omega
  rw [rect_emb 256 _ p q ⟨_, hq⟩ rfl, emb_out t p ⟨_, hq⟩ ⟨_, hlt⟩ rfl,
    (joined_apply Spec.joins _ _ _ _ _ ⟨_, hlt⟩ q ⟨_, hq⟩).2.2.1 rfl]
  show V c main_v51 (((cfg4.win 2).blk t).view.emb (ix2 p q)) = _
  rw [(emb_feat t p q ⟨_, hlt⟩ rfl).2.2.1]

/-- The second store: the block of the first hop lands in columns 128-255. -/
theorem piece_hop1 (c : Dev nD) (t : Fin cfg4.N) (p : Fin 2000) (q : Fin 128) :
    iblk4 V c 1 t (ix2 p q)
      = joined Spec.joins (V c main_arg0) (V c main_v40) (V c main_v51) (V c main_v62)
        (broadcastInDim S50000x128 ![0, 1] Spec.repeated (V c main_v66)) (((cfg4.win 5).blk t).view.emb (r4_2.emb (ix2 p q))) := by
  have hlt : 2000 * t.val + p.val < 50000 := by
    have ht : t.val < 25 := lt_of_lt_of_eq t.isLt N_4
    have := p.isLt; omega
  have hq : 128 + q.val < 640 := by have := q.isLt; omega
  rw [rect_emb 128 _ p q ⟨_, hq⟩ rfl, emb_out t p ⟨_, hq⟩ ⟨_, hlt⟩ rfl,
    (joined_apply Spec.joins _ _ _ _ _ ⟨_, hlt⟩ q ⟨_, hq⟩).2.1 rfl]
  show V c main_v40 (((cfg4.win 1).blk t).view.emb (ix2 p q)) = _
  rw [(emb_feat t p q ⟨_, hlt⟩ rfl).2.1]

/-- The first store: the block of node features lands in columns 0-127. -/
theorem piece_feat (c : Dev nD) (t : Fin cfg4.N) (p : Fin 2000) (q : Fin 128) :
    iblk4 V c 0 t (ix2 p q)
      = joined Spec.joins (V c main_arg0) (V c main_v40) (V c main_v51) (V c main_v62)
        (broadcastInDim S50000x128 ![0, 1] Spec.repeated (V c main_v66)) (((cfg4.win 5).blk t).view.emb (r4_1.emb (ix2 p q))) := by
  have hlt : 2000 * t.val + p.val < 50000 := by
    have ht : t.val < 25 := lt_of_lt_of_eq t.isLt N_4
    have := p.isLt; omega
  have hq : 0 + q.val < 640 := by have := q.isLt; omega
  rw [rect_emb 0 _ p q ⟨_, hq⟩ rfl, emb_out t p ⟨_, hq⟩ ⟨_, hlt⟩ rfl,
    (joined_apply Spec.joins _ _ _ _ _ ⟨_, hlt⟩ q ⟨_, hq⟩).1 (by show 0 + q.val = q.val; omega)]
  show V c main_arg0 (((cfg4.win 0).blk t).view.emb (ix2 p q)) = _
  rw [(emb_feat t p q ⟨_, hlt⟩ rfl).1]

/-- Each of the five stores writes, at every entry of its rectangle, what block t of the joined array holds there. -/
theorem pieces_agree (c : Dev nD) (t : Fin cfg4.N) : ∀ pc ∈ ([⟨r4_6, broadcastTo S2000x128 (iblk4 V c 4 t) broadcasts_S1x128_S2000x128⟩, ⟨r4_4, iblk4 V c 3 t⟩,
      ⟨r4_3, iblk4 V c 2 t⟩, ⟨r4_2, iblk4 V c 1 t⟩, ⟨r4_1, iblk4 V c 0 t⟩] : List (View.Piece (Elt F) S2000x640 .f32)),
    ∀ x : pc.1.shape.Idx, pc.2 x = (fun y : S2000x640.Idx => joined Spec.joins (V c main_arg0) (V c main_v40) (V c main_v51) (V c main_v62)
      (broadcastInDim S50000x128 ![0, 1] Spec.repeated (V c main_v66)) (((cfg4.win 5).blk t).view.emb y)) (pc.1.emb x) := by
  intro pc hpc x
  simp only [List.mem_cons, List.mem_nil_iff, or_false] at hpc
  rcases hpc with rfl | rfl | rfl | rfl | rfl
  · obtain ⟨p, q, rfl⟩ : ∃ (p : Fin 2000) (q : Fin 128), x = (ix2 p q : S2000x128.Idx) := ⟨x 0, x 1, eq_ix2 x⟩
    exact piece_mean V c t p q
  · obtain ⟨p, q, rfl⟩ : ∃ (p : Fin 2000) (q : Fin 128), x = (ix2 p q : S2000x128.Idx) := ⟨x 0, x 1, eq_ix2 x⟩
    exact piece_hop3 V c t p q
  · obtain ⟨p, q, rfl⟩ : ∃ (p : Fin 2000) (q : Fin 128), x = (ix2 p q : S2000x128.Idx) := ⟨x 0, x 1, eq_ix2 x⟩
    exact piece_hop2 V c t p q
  · obtain ⟨p, q, rfl⟩ : ∃ (p : Fin 2000) (q : Fin 128), x = (ix2 p q : S2000x128.Idx) := ⟨x 0, x 1, eq_ix2 x⟩
    exact piece_hop1 V c t p q
  · obtain ⟨p, q, rfl⟩ : ∃ (p : Fin 2000) (q : Fin 128), x = (ix2 p q : S2000x128.Idx) := ⟨x 0, x 1, eq_ix2 x⟩
    exact piece_feat V c t p q

/-- What point t writes back is block t of the assembled output of the arrays as the pass finds them. -/
theorem flushed_eq (c : Dev nD) (t : Fin cfg4.N) :
    (dat4 V c).flushed 5 t = ((cfg4.win 5).blk t).view.read (Elt F)
      (Spec.assembled (V c main_arg0) (V c main_v40) (V c main_v51) (V c main_v62) (V c main_v66)) := by
  show (cfg4.win 5).cut (grid4.coords t) ((dat4 V c).after 5 t) = ((cfg4.win 5).blk t).view.read (Elt F)
    (joined Spec.joins (V c main_arg0) (V c main_v40) (V c main_v51) (V c main_v62)
      (broadcastInDim S50000x128 ![0, 1] Spec.repeated (V c main_v66)))
  rw [after4_5]
  unfold out4_5
  simp only [View.ld_unit_zero (S := S2000x128) no_offset, View.ld_unit_zero (S := S1x128) no_offset, pay1_eq, pay2_eq, pay3_eq, pay4_eq]
  funext j
  show View.canon ([⟨r4_6, broadcastTo S2000x128 (iblk4 V c 4 t) broadcasts_S1x128_S2000x128⟩, ⟨r4_4, iblk4 V c 3 t⟩,
      ⟨r4_3, iblk4 V c 2 t⟩, ⟨r4_2, iblk4 V c 1 t⟩, ⟨r4_1, iblk4 V c 0 t⟩] : List (View.Piece (Elt F) S2000x640 .f32)) j = (fun y : S2000x640.Idx => joined Spec.joins (V c main_arg0) (V c main_v40) (V c main_v51) (V c main_v62)
      (broadcastInDim S50000x128 ![0, 1] Spec.repeated (V c main_v66)) (((cfg4.win 5).blk t).view.emb y)) j
  exact View.canon_apply_of_pieces (fun y : S2000x640.Idx => joined Spec.joins (V c main_arg0) (V c main_v40) (V c main_v51) (V c main_v62)
      (broadcastInDim S50000x128 ![0, 1] Spec.repeated (V c main_v66)) (((cfg4.win 5).blk t).view.emb y)) _ (pieces_agree V c t) j (cover4_5 _ _ _ _ _ j)
/-- An index of the output is in point t's block when its row is one of the block's 2000 rows. -/
theorem mem_blk (t : Fin cfg4.N) (i : S50000x640.Idx) :
    i ∈ ((cfg4.win 5).blk t).view.set ↔ ∀ a : Fin 2, win4_5.index t a * S2000x640.size a ≤ (i a).val ∧ (i a).val < win4_5.index t a * S2000x640.size a + S2000x640.size a := by
  show i ∈ ((View.whole main_v67).slice (win4_5.rect t)).set ↔ _
  rw [View.set_slice_whole, Rect.mem_set_unit]
  exact Iff.rfl

/-- Every row of the output lies in one of the 25 blocks: row n in block n / 2000. -/
theorem cover (i : S50000x640.Idx) :
    ∃ t : Fin cfg4.N, (cfg4.win 5).flush t = true ∧ i ∈ ((cfg4.win 5).blk t).view.set := by
  have h0 : (i 0).val < 50000 := (i 0).isLt
  have h1 : (i 1).val < 640 := (i 1).isLt
  have ht : (i 0).val / 2000 < cfg4.N := by rw [show cfg4.N = 25 from N_4]; omega
  refine ⟨⟨(i 0).val / 2000, ht⟩, flush4_5 _, ?_⟩
  rw [mem_blk]
  obtain ⟨-, -, -, -, -, -, -, -, -, -, e10, e11⟩ := rows ⟨(i 0).val / 2000, ht⟩
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win4_5.index ⟨(i 0).val / 2000, ht⟩ (1 : Fin 2) * 640 ≤ (i 1).val ∧ (i 1).val < win4_5.index ⟨(i 0).val / 2000, ht⟩ (1 : Fin 2) * 640 + 640
    rw [e11]; omega

/-- After the pass the output is the assembled array of the inputs as the pass found them. -/
theorem final (c : Dev nD) :
    (dat4 V c).arrAt 5 cfg4.N
      = Spec.assembled (V c main_arg0) (V c main_v40) (V c main_v51) (V c main_v62) (V c main_v66) :=
  (dat4 V c).arrAt_eq_of_cover 5 _ (fun t _ => flushed_eq V c t) cover

end Cert.KernelIdeal.Assemble

end
-- ==== Proof.ChainEnd.lean ====
/-
  The second half of the walk through the kernel program's boundaries: the third hop, the row of means, and the
  assembled output.
-/
import proofs.«134726_j81200651698780_2_alg».proof.Proof.Chain
import proofs.«134726_j81200651698780_2_alg».proof.Proof.Assemble

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.KernelIdeal.Spec

variable {F : FTy → Type} [FloatOps F]
variable (m : (ℓ : Loc nD τ sig) → Buf (Elt F) ℓ) (ρ : Dev nD → PrngReg) (c : Dev nD)

set_option maxHeartbeats 1600000 in
theorem W9_v51 : W9 m ρ c (Proc.devRef .tc main_v51) = hop (a1 m c) (a2 m c) (hop (a1 m c) (a2 m c) (a0 m c)) := by
  show StableHlo.after hostOps3 (W8 m ρ c) (Proc.devRef .tc main_v51) = _
  after_results
  rw [W8_v3 m ρ c, W8_v48 m ρ c]
  rfl

set_option maxHeartbeats 1600000 in
theorem W9_v58 : W9 m ρ c (Proc.devRef .tc main_v58) = gatherRows (hop (a1 m c) (a2 m c) (hop (a1 m c) (a2 m c) (a0 m c))) (a1 m c) := by
  show StableHlo.after hostOps3 (W8 m ρ c) (Proc.devRef .tc main_v58) = _
  after_results
  rw [W8_v3 m ρ c, W8_v48 m ρ c, W8_v1 m ρ c]
  rfl

theorem W9_v3 : W9 m ρ c (Proc.devRef .tc main_v3) = tgt (a1 m c) := by
  refine Eq.trans ?_ (W8_v3 m ρ c)
  show StableHlo.after hostOps3 (W8 m ρ c) (Proc.devRef .tc main_v3) = _
  after_results

theorem W9_v29 : W9 m ρ c (Proc.devRef .tc main_v29) = weights (a1 m c) (a2 m c) := by
  refine Eq.trans ?_ (W8_v29 m ρ c)
  show StableHlo.after hostOps3 (W8 m ρ c) (Proc.devRef .tc main_v29) = _
  after_results

theorem W9_v40 : W9 m ρ c (Proc.devRef .tc main_v40) = hop (a1 m c) (a2 m c) (a0 m c) := by
  refine Eq.trans ?_ (W8_v40 m ρ c)
  show StableHlo.after hostOps3 (W8 m ρ c) (Proc.devRef .tc main_v40) = _
  after_results

theorem W9_arg0 : W9 m ρ c (Proc.devRef .tc main_arg0) = a0 m c := by
  refine Eq.trans ?_ (W8_arg0 m ρ c)
  show StableHlo.after hostOps3 (W8 m ρ c) (Proc.devRef .tc main_arg0) = _
  after_results

theorem W10_v59 : W10 m ρ c (Proc.devRef .tc main_v59) = msgs (gatherRows (hop (a1 m c) (a2 m c) (hop (a1 m c) (a2 m c) (a0 m c))) (a1 m c)) (weights (a1 m c) (a2 m c)) := by
  refine ((W10_arr m ρ c 2).trans (Scale3.final (V9 m ρ) c)).trans ?_
  show msgs (W9 m ρ c (Proc.devRef .tc main_v58)) (W9 m ρ c (Proc.devRef .tc main_v29)) = _
  rw [W9_v58 m ρ c, W9_v29 m ρ c]

theorem W10_v3 : W10 m ρ c (Proc.devRef .tc main_v3) = tgt (a1 m c) :=
  (W10_of_ne m ρ c main_v3 (by decide)).trans (W9_v3 m ρ c)

theorem W10_v40 : W10 m ρ c (Proc.devRef .tc main_v40) = hop (a1 m c) (a2 m c) (a0 m c) :=
  (W10_of_ne m ρ c main_v40 (by decide)).trans (W9_v40 m ρ c)

set_option maxHeartbeats 1600000 in
theorem W10_v51 : W10 m ρ c (Proc.devRef .tc main_v51) = hop (a1 m c) (a2 m c) (hop (a1 m c) (a2 m c) (a0 m c)) :=
  (W10_of_ne m ρ c main_v51 (by decide)).trans (W9_v51 m ρ c)

theorem W10_arg0 : W10 m ρ c (Proc.devRef .tc main_arg0) = a0 m c :=
  (W10_of_ne m ρ c main_arg0 (by decide)).trans (W9_arg0 m ρ c)

set_option maxHeartbeats 1600000 in
theorem W11_v62 : W11 m ρ c (Proc.devRef .tc main_v62) = hop (a1 m c) (a2 m c) (hop (a1 m c) (a2 m c) (hop (a1 m c) (a2 m c) (a0 m c))) := by
  show StableHlo.after hostOps4 (W10 m ρ c) (Proc.devRef .tc main_v62) = _
  after_results
  rw [W10_v3 m ρ c, W10_v59 m ρ c]
  rfl

set_option maxHeartbeats 1600000 in
theorem W11_v66 : W11 m ρ c (Proc.devRef .tc main_v66) = meanRow (a0 m c) := by
  show StableHlo.after hostOps4 (W10 m ρ c) (Proc.devRef .tc main_v66) = _
  after_results
  rw [W10_arg0 m ρ c]
  rfl

theorem W11_arg0 : W11 m ρ c (Proc.devRef .tc main_arg0) = a0 m c := by
  refine Eq.trans ?_ (W10_arg0 m ρ c)
  show StableHlo.after hostOps4 (W10 m ρ c) (Proc.devRef .tc main_arg0) = _
  after_results

theorem W11_v40 : W11 m ρ c (Proc.devRef .tc main_v40) = hop (a1 m c) (a2 m c) (a0 m c) := by
  refine Eq.trans ?_ (W10_v40 m ρ c)
  show StableHlo.after hostOps4 (W10 m ρ c) (Proc.devRef .tc main_v40) = _
  after_results

set_option maxHeartbeats 1600000 in
theorem W11_v51 : W11 m ρ c (Proc.devRef .tc main_v51) = hop (a1 m c) (a2 m c) (hop (a1 m c) (a2 m c) (a0 m c)) := by
  refine Eq.trans ?_ (W10_v51 m ρ c)
  show StableHlo.after hostOps4 (W10 m ρ c) (Proc.devRef .tc main_v51) = _
  after_results

/-- The result buffer after the last pass holds the whole output of the launch contents of the three arguments. -/
theorem result : W12 m ρ c (Proc.devRef .tc main_v67) = output (a0 m c) (a1 m c) (a2 m c) := by
  refine ((W12_arr m ρ c 5).trans (Assemble.final (V11 m ρ) c)).trans ?_
  show assembled (W11 m ρ c (Proc.devRef .tc main_arg0)) (W11 m ρ c (Proc.devRef .tc main_v40)) (W11 m ρ c (Proc.devRef .tc main_v51)) (W11 m ρ c (Proc.devRef .tc main_v62)) (W11 m ρ c (Proc.devRef .tc main_v66)) = _
  rw [W11_arg0 m ρ c, W11_v40 m ρ c, W11_v51 m ρ c, W11_v62 m ρ c, W11_v66 m ρ c]
  rfl

end Cert.KernelIdeal.Chain

end
-- ==== Proof.lean ====
/-
  Three rounds of message passing on a graph with 50000 nodes and 800000 weighted edges, written twice: as a program of
  five tiled passes between whole-array look-ups and segment sums, and as one whole-array formula.

  Both compute, from the node features x, the edge list and the edge weights,

    deg(i)  = sum of the weights of the edges into i,      dinv(i) = deg(i)^(-1/2) where deg(i) > 0, else 0,
    w(e)    = dinv(source e) * weight(e) * dinv(target e),
    hop(y)(i) = sum over the edges e into i of y(source e) * w(e),
    output  = [ x | hop x | hop^2 x | hop^3 x | the column means of x, in every row ].

  The tiled program differs from the formula only in how it lays numbers out. It multiplies the three edge factors on a
  lane-dense grid of 250 x 3200 entries and re-lays the product as a column, where the formula multiplies flat lists;
  edge e is entry (e / 3200, e % 3200) of the grid and entry (e, 0) of the column, so the two columns are equal. It
  multiplies the gathered rows by the weight column block by block (8000 edges at a time), and joins the five pieces of
  the output block by block (2000 nodes at a time); the blocks tile the arrays, so each pass leaves the whole-array
  product, respectively the whole-array join. Every look-up, every segment sum, the reciprocal square root and the
  division by 50000 are the same operation applied to the same operands, in the same order, on both sides, so the two
  results are one term of the arguments: no law of arithmetic is used, and the inputs' finiteness is not needed.

  The idealisation rewrote nothing in the tiled program, so it is trivially the program's sanctioned idealisation.
-/
import proofs.«134726_j81200651698780_2_alg».proof.Defs
import proofs.«134726_j81200651698780_2_alg».proof.Proof.Gen.Kernel
import proofs.«134726_j81200651698780_2_alg».proof.Proof.Gen.Kernel.Frame
import proofs.«134726_j81200651698780_2_alg».proof.Proof.Gen.KernelIdeal
import proofs.«134726_j81200651698780_2_alg».proof.Proof.Gen.KernelIdeal.Frame
import proofs.«134726_j81200651698780_2_alg».proof.Proof.Gen.ReferenceIdeal
import proofs.«134726_j81200651698780_2_alg».proof.Proof.Gen.Pre_finite_inputs
import proofs.«134726_j81200651698780_2_alg».proof.Proof.Gen.ReferenceIdeal.Run
import proofs.«134726_j81200651698780_2_alg».proof.Proof.KernelWhole
import proofs.«134726_j81200651698780_2_alg».proof.Proof.Chain
import proofs.«134726_j81200651698780_2_alg».proof.Proof.ChainEnd
import Idealize.ShloMosaic.Adequacy
import Idealize.ShloMosaic.Init

set_option maxRecDepth 16384

noncomputable section

namespace Cert.Proof

open Idealize.ShloMosaic Idealize.ShloMosaic.TcCoe Idealize.SL.Sem

variable {F : FTy → Type} [FloatOps F]

/-- The whole-array formula's result is the output function of its own arguments: the formula's operations, written
    out, are the output function's definition. -/
theorem formula_output (m' : (ℓ : Loc Cert.ReferenceIdeal.nD Cert.ReferenceIdeal.τ Cert.ReferenceIdeal.sig) → Buf (Elt F) ℓ)
    (c : Dev Cert.ReferenceIdeal.nD) :
    Cert.ReferenceIdeal.Value.res_main_v71 m' c
      = Cert.KernelIdeal.Spec.output
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) := by
  unfold Cert.ReferenceIdeal.Value.res_main_v71
  rfl

theorem frame_k : Cert.frame_Kernel := fun m ρ _ => Cert.Kernel.Gen.frame m ρ

theorem frame_ki : Cert.frame_KernelIdeal := fun m ρ _ => Cert.KernelIdeal.Gen.frame m ρ

/-- The formula's run, its result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both programs end with the output function of those arguments in
    their result buffers. -/
theorem algebraic : Cert.algebraic_KernelIdeal_ReferenceIdeal := by
  intro m ρ m' ρ' _ hagree
  refine ⟨fun c => Cert.KernelIdeal.Spec.output (Cert.KernelIdeal.Chain.a0 m c) (Cert.KernelIdeal.Chain.a1 m c)
    (Cert.KernelIdeal.Chain.a2 m c), ?_, ?_⟩
  · exact (θ_run Cert.KernelIdeal.defs _ _).mono
      (fun r h c => ⟨(h c).1.trans (Cert.KernelIdeal.Chain.result m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    refine (formula_output m' c).trans ?_
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
